-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x131072 : Shape := ⟨3, ![16, 32, 131072]⟩
abbrev S16x131072 : Shape := ⟨2, ![16, 131072]⟩
abbrev S_ : Shape := ⟨0, ![]⟩

class Facts : Prop where
  bcast_S_S16x32x131072 : S_.BroadcastsInDim S16x32x131072 (![] : Fin 0 → Fin S16x32x131072.rank)
  reducesTo_S16x32x131072_S_d0_1_2 : S16x32x131072.ReducesTo [0, 1, 2] S_
  h_S_ : 0 < S_.numel

variable [Facts]

def fn {F : FTy → Type} [FloatOps F] (main_arg0 : FVec F S16x32x131072 .f32) (main_arg1 : IVec S16x131072 32) : IVec S_ 1 :=
  let main_v0 : FVec F S16x32x131072 .f32 := Host.absf main_arg0
  let main_cst : FVec F S_ .f32 := constant S_ .f32 0x7F800000#32
  let main_v1 : FVec F S16x32x131072 .f32 := broadcastInDim S16x32x131072 ![] bcast_S_S16x32x131072 main_cst
  let main_v2 : IVec S16x32x131072 1 := cmpf .olt main_v0 main_v1
  let main_c : IVec S_ 1 := constantI S_ 1 1#1
  let main_v3 : IVec S_ 1 := (fun x v => Host.reduce IntOp.andi x v reducesTo_S16x32x131072_S_d0_1_2 h_S_) main_v2 main_c
  main_v3
-- ==== Kernel.lean ====
abbrev S16x32x131072 : Shape := ⟨3, ![16, 32, 131072]⟩
abbrev S16x131072 : Shape := ⟨2, ![16, 131072]⟩
abbrev S1x1 : Shape := ⟨2, ![1, 1]⟩
abbrev S16x32x512 : Shape := ⟨3, ![16, 32, 512]⟩
abbrev S16x512 : Shape := ⟨2, ![16, 512]⟩
abbrev S16x1x512 : Shape := ⟨3, ![16, 1, 512]⟩
abbrev S32x16x512 : Shape := ⟨3, ![32, 16, 512]⟩
abbrev S1x16x512 : Shape := ⟨3, ![1, 16, 512]⟩
abbrev S32x512 : Shape := ⟨2, ![32, 512]⟩
abbrev S1x32x512 : Shape := ⟨3, ![1, 32, 512]⟩
abbrev S16x32 : Shape := ⟨2, ![16, 32]⟩
abbrev S16 : Shape := ⟨1, ![16]⟩
abbrev S16x1 : Shape := ⟨2, ![16, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S16x32x131072, .f32⟩
  | .hbm, ⟨1, _⟩ => ⟨S16x131072, .i32⟩
  | .hbm, ⟨2, _⟩ => ⟨S1x1, .f32⟩
  | .hbm, ⟨3, _⟩ => ⟨S_, .f32⟩
  | .local _ .vmem, ⟨0, _⟩ => ⟨S16x32x512, .f32⟩
  | .local _ .vmem, ⟨1, _⟩ => ⟨S16x32x512, .f32⟩
  | .local _ .vmem, ⟨2, _⟩ => ⟨S16x512, .i32⟩
  | .local _ .vmem, ⟨3, _⟩ => ⟨S16x512, .i32⟩
  | .local _ .vmem, ⟨4, _⟩ => ⟨S1x1, .f32⟩
  | .local _ .vmem, ⟨5, _⟩ => ⟨S1x1, .f32⟩
  | _, _ => ⟨S16x32x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v41 : BitVec 1 := Scalar.cmpi .eq arg0 c255_i32
  let v42 : BitVec 32 := Scalar.extui v41
  let c0_i32_16 : BitVec 32 := 0#32
  let v43 : BitVec 1 := Scalar.cmpi .ne v42 c0_i32_16
  v43

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x32x512_S16x32x512_0_0_0 : ∀ a, (![0, 0, 0] : Fin 3 → Nat) a + S16x32x512.size a ≤ S16x32x512.size a
  h_S16x32x512 : 0 < S16x32x512.numel
  inb_S16x512_S16x512_0_0 : ∀ a, (![0, 0] : Fin 2 → Nat) a + S16x512.size a ≤ S16x512.size a
  h_S16x512 : 0 < S16x512.numel
  reduces_S16x32x512_S16x512 : S16x32x512.Reduces [1] S16x512
  shapeCasts_S16x512_S16x1x512 : S16x512.ShapeCasts S16x1x512
  broadcasts_S16x1x512_S16x32x512 : S16x1x512.Broadcasts S16x32x512
  iota_S32x16x512_d0_w32 : S32x16x512.Iotas .tc 32 [0]
  shapeCasts_S16x512_S1x16x512 : S16x512.ShapeCasts S1x16x512
  broadcasts_S1x16x512_S32x16x512 : S1x16x512.Broadcasts S32x16x512
  natLt_1_32 : 1 < 32
  reduces_S32x16x512_S32x512 : S32x16x512.Reduces [1] S32x512
  shapeCasts_S32x512_S1x32x512 : S32x512.ShapeCasts S1x32x512
  broadcasts_S1x32x512_S16x32x512 : S1x32x512.Broadcasts S16x32x512
  reduces_S16x32x512_S16x32 : S16x32x512.Reduces [2] S16x32
  reduces_S16x32_S16 : S16x32.Reduces [1] S16
  shapeCasts_S16_S16x1 : S16.ShapeCasts S16x1
  reduces_S16x1_S1 : S16x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x512.size a ≤ S16x32x131072.size a
  hwx0_0 : ∀ i : grid0.Coords, EltTy.bits .f32 = 32 ∨ (Rect.block (s := S16x32x131072) S16x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x131072.size a
  hwx0_1 : ∀ i : grid0.Coords, EltTy.bits .i32 = 32 ∨ (Rect.block (s := S16x131072) S16x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S16x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x32x131072 : Shape := ⟨3, ![16, 32, 131072]⟩
abbrev S16x131072 : Shape := ⟨2, ![16, 131072]⟩
abbrev S_ : Shape := ⟨0, ![]⟩
abbrev S16x1x131072 : Shape := ⟨3, ![16, 1, 131072]⟩
abbrev S16x131072x1 : Shape := ⟨3, ![16, 131072, 1]⟩
abbrev S1x1x32 : Shape := ⟨3, ![1, 1, 32]⟩
abbrev S16x131072x32 : Shape := ⟨3, ![16, 131072, 32]⟩
abbrev S131072x32 : Shape := ⟨2, ![131072, 32]⟩
abbrev S32x131072 : Shape := ⟨2, ![32, 131072]⟩
abbrev S1x32x131072 : Shape := ⟨3, ![1, 32, 131072]⟩

abbrev nBuf : Space → Nat
  | .hbm => 36
  | .vmem => 0
  | .smem => 0
  | _ => 0

abbrev bufTy : (tb : Table) → Fin (tcTables nBuf tb) → BufTy
  | .hbm, ⟨0, _⟩ => ⟨S16x32x131072, .f32⟩
  | .hbm, ⟨1, _⟩ => ⟨S16x131072, .i32⟩
  | .hbm, ⟨2, _⟩ => ⟨S_, .f32⟩
  | .hbm, ⟨3, _⟩ => ⟨S16x131072, .f32⟩
  | .hbm, ⟨4, _⟩ => ⟨S_, .f32⟩
  | .hbm, ⟨5, _⟩ => ⟨S16x131072, .f32⟩
  | .hbm, ⟨6, _⟩ => ⟨S16x131072, .f32⟩
  | .hbm, ⟨7, _⟩ => ⟨S16x1x131072, .f32⟩
  | .hbm, ⟨8, _⟩ => ⟨S16x32x131072, .f32⟩
  | .hbm, ⟨9, _⟩ => ⟨S16x32x131072, .f32⟩
  | .hbm, ⟨10, _⟩ => ⟨S16x32x131072, .f32⟩
  | .hbm, ⟨11, _⟩ => ⟨S_, .f32⟩
  | .hbm, ⟨12, _⟩ => ⟨S16x131072, .f32⟩
  | .hbm, ⟨13, _⟩ => ⟨S16x1x131072, .f32⟩
  | .hbm, ⟨14, _⟩ => ⟨S16x1x131072, .f32⟩
  | .hbm, ⟨15, _⟩ => ⟨S16x32x131072, .f32⟩
  | .hbm, ⟨16, _⟩ => ⟨S16x32x131072, .f32⟩
  | .hbm, ⟨17, _⟩ => ⟨S16x32x131072, .f32⟩
  | .hbm, ⟨18, _⟩ => ⟨S16x32x131072, .f32⟩
  | .hbm, ⟨19, _⟩ => ⟨S16x32x131072, .f32⟩
  | .hbm, ⟨20, _⟩ => ⟨S16x131072x1, .i32⟩
  | .hbm, ⟨21, _⟩ => ⟨S1x1x32, .i32⟩
  | .hbm, ⟨22, _⟩ => ⟨S16x131072x32, .i32⟩
  | .hbm, ⟨23, _⟩ => ⟨S16x131072x32, .i32⟩
  | .hbm, ⟨24, _⟩ => ⟨S16x131072x32, .i1⟩
  | .hbm, ⟨25, _⟩ => ⟨S16x131072x32, .f32⟩
  | .hbm, ⟨26, _⟩ => ⟨S_, .f32⟩
  | .hbm, ⟨27, _⟩ => ⟨S131072x32, .f32⟩
  | .hbm, ⟨28, _⟩ => ⟨S32x131072, .f32⟩
  | .hbm, ⟨29, _⟩ => ⟨S1x32x131072, .f32⟩
  | .hbm, ⟨30, _⟩ => ⟨S16x32x131072, .f32⟩
  | .hbm, ⟨31, _⟩ => ⟨S16x32x131072, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S16x32x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩

abbrev nD : Nat := 1
abbrev τ : Topo := Topo.v7x

variable {F : FTy → Type} [FloatOps F]

class Facts₀ : Prop where
  reducesTo_S16x32x131072_S16x131072_d1 : S16x32x131072.ReducesTo [1] S16x131072
  h_S_ : 0 < S_.numel
  bcast_S_S16x131072 : S_.BroadcastsInDim S16x131072 (![] : Fin 0 → Fin S16x131072.rank)
  bcast_S16x131072_S16x1x131072_0_2 : S16x131072.BroadcastsInDim S16x1x131072 (![0, 2] : Fin 2 → Fin S16x1x131072.rank)
  bcast_S16x1x131072_S16x32x131072_0_1_2 : S16x1x131072.BroadcastsInDim S16x32x131072 (![0, 1, 2] : Fin 3 → Fin S16x32x131072.rank)
  bcast_S16x131072_S16x131072x1_0_1 : S16x131072.BroadcastsInDim S16x131072x1 (![0, 1] : Fin 2 → Fin S16x131072x1.rank)
  bcast_S16x131072x1_S16x131072x32_0_1_2 : S16x131072x1.BroadcastsInDim S16x131072x32 (![0, 1, 2] : Fin 3 → Fin S16x131072x32.rank)
  bcast_S1x1x32_S16x131072x32_0_1_2 : S1x1x32.BroadcastsInDim S16x131072x32 (![0, 1, 2] : Fin 3 → Fin S16x131072x32.rank)
  reducesTo_S16x131072x32_S131072x32_d0 : S16x131072x32.ReducesTo [0] S131072x32
  transposes_S131072x32_S32x131072_1_0 : S131072x32.Transposes [1, 0] S32x131072
  bcast_S32x131072_S1x32x131072_1_2 : S32x131072.BroadcastsInDim S1x32x131072 (![1, 2] : Fin 2 → Fin S1x32x131072.rank)
  bcast_S1x32x131072_S16x32x131072_0_1_2 : S1x32x131072.BroadcastsInDim S16x32x131072 (![0, 1, 2] : Fin 3 → Fin S16x32x131072.rank)
  reducesTo_S16x32x131072_S_d0_1_2 : S16x32x131072.ReducesTo [0, 1, 2] S_

variable [Facts₀]

class Facts : Prop extends Facts₀ where

variable [Facts]
-- ==== Proof.LossLaw.lean ====
/-
  The scalar facts that join the two programs, on the extended reals.

  One program forms  (0 - L) * exp (0 - L)  from a log-probability L, the other  (-L) / exp L .
  They are one function of L on every extended real: for a real L both are  -L * e^(-L) ; at L = +inf both are 0
  (the product of -inf with exp (-inf) = 0 on one side, -inf times the inverse of +inf on the other); at L = -inf both
  are +inf (+inf times +inf on one side, +inf divided by exp (-inf) = 0 on the other, which the division sends to the
  infinity of the numerator's sign). So no finiteness of the inputs is needed to join the two.
-/
import Idealize.ShloMosaic.PureOps.Ideal.Laws

noncomputable section

open Idealize.ShloMosaic

namespace Cert.LossLaw

/-- The word both programs start their maximum from denotes -inf. -/
theorem neg_inf_word : Ideal.ofBits .f32 0xFF800000#32 = ⊥ := by simp [Ideal.ofBits, Ideal.ieee]

/-- A maximum with -inf is the other argument. -/
theorem max_neg_inf_word (y : EReal) : max (Ideal.ofBits .f32 0xFF800000#32) y = y := by
  rw [neg_inf_word]; exact max_eq_right bot_le

/-- (0 - L) * exp (0 - L) = (-L) / exp L on every extended real. -/
theorem neg_mul_exp_neg (L : EReal) :
    (0 - L) * Ideal.exp (0 - L) = Ideal.div (-L) (Ideal.exp L) := by
  rw [zero_sub]
  induction L using EReal.rec with
  | bot => simp [Ideal.div]
  | top => simp [Ideal.div]
  | coe r =>
    rw [← EReal.coe_neg, Ideal.exp_coe, Ideal.exp_coe, Ideal.div,
      if_neg (by exact_mod_cast (Real.exp_pos r).ne'), ← EReal.coe_inv, Real.exp_neg]

end Cert.LossLaw

end
-- ==== Proof.LossSpec.lean ====
/-
  The loss, one element at a time.

  For one point n and one batch row b, the 32 class scores form a column  col . Its largest entry (taken from -inf) is
  subtracted from every entry; the logarithm of the sum of the exponentials of what is left is subtracted again: that is
  the log-probability  logp col c  of class c. The 16 labels at the point form  lab ; the weight of class c is the number
  hits lab c  of labels equal to c. The element's contribution to the loss is

      term col lab c = (0 - logp col c) * exp (0 - logp col c) * hits lab c ,

  which one program computes in exactly this form and the other as  (-(logp col c)) / exp (logp col c) * hits lab c ;
  the two agree on every extended real (the law of the scalar module). The loss is the sum of the terms over all
  (b, c, n), divided by the number of points.
-/
import proofs.«110663_j45251775431144_2_alg».proof.Proof.LossLaw

noncomputable section

open Idealize.ShloMosaic
open scoped BigOperators

namespace Cert.LossSpec

/-- The largest of a column of 32 class scores, taken from -inf. -/
def colMax (col : Fin 32 → EReal) : EReal :=
  (Finset.univ : Finset (Fin 32)).fold max (Ideal.ofBits .f32 0xFF800000#32) col

/-- A score with the column's maximum subtracted. -/
def shifted (col : Fin 32 → EReal) (c : Fin 32) : EReal := col c - colMax col

/-- The log-probability of class c: the shifted score minus the log of the sum of the exponentials of the shifted scores. -/
def logp (col : Fin 32 → EReal) (c : Fin 32) : EReal :=
  shifted col c - Ideal.log (∑ k : Fin 32, Ideal.exp (shifted col k))

/-- How many of the 16 labels at a point are class c (each comparison is a one-bit word, read as 0 or 1). -/
def hits (lab : Fin 16 → BitVec 32) (c : Fin 32) : EReal :=
  ∑ b : Fin 16, (((IntOp.cmpi .eq (lab b) (BitVec.ofNat 32 c.val)).toNat : ℝ) : EReal)

/-- One element's contribution to the loss. -/
def term (col : Fin 32 → EReal) (lab : Fin 16 → BitVec 32) (c : Fin 32) : EReal :=
  (0 - logp col c) * Ideal.exp (0 - logp col c) * hits lab c

/-- The same contribution written with a quotient: -logp / exp logp, weighted. -/
theorem term_eq_div (col : Fin 32 → EReal) (lab : Fin 16 → BitVec 32) (c : Fin 32) :
    term col lab c = Ideal.div (-(logp col c)) (Ideal.exp (logp col c)) * hits lab c := by
  unfold term; rw [LossLaw.neg_mul_exp_neg]

/-- A one-bit comparison word widened to 32 bits and read as a signed integer is the bit read as a natural number;
    and equality of two words does not depend on the order they are compared in. -/
theorem cmp_word (a w : BitVec 32) :
    (((IntOp.cmpi .eq a w).setWidth 32).toInt : ℝ) = ((IntOp.cmpi .eq w a).toNat : ℝ) := by
  unfold IntOp.cmpi
  by_cases h : a = w
  · subst h; simp
  · have h1 : (a == w) = false := by simpa using h
    have h2 : (w == a) = false := by simpa using (fun e : w = a => h e.symm)
    simp [h1, h2]

end Cert.LossSpec

end
-- ==== Proof.LibLayout3.lean ====
/-
  Rank-3 layout operations read at an index given by coordinates.

  A shape cast keeps the row-major position of an element, and a broadcast reads coordinate 0 on each unit
  axis of its operand. The lemmas below spell this out, for indices written by their coordinates, in the cases
  an outer product of two row blocks flattened for a matrix product needs:
  * inserting a unit axis in the middle, `[a, c] → [a, 1, c]`;
  * flattening the two leading axes, `[a, b, c] → [a * b, c]` (row `i * b + k` is the pair `(i, k)`), and back;
  * stretching a unit axis, `[a, 1, c] → [a, b, c]`, `[1, b, c] → [a, b, c]`, `[1, 1, c] → [a, b, c]`.
-/
import Idealize.ShloMosaic.Lib.Pipeline.Value
import Idealize.ShloMosaic.Lib.ValueIdx

namespace Cert.Layout3

open Idealize.ShloMosaic Idealize.ShloMosaic.ValueIdx

variable {α : Type}

/-! ## Shape casts -/

/-- An `[a, c]` array cast to `[a, 1, c]` reads, at `(i, u, j)`, the operand at `(i, j)`: both have row-major
    position `i * c + j`, the unit coordinate `u` being `0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, c]` array cast to `[m, c]` reads, at `(r, j)` with `r = i * b + k`, the operand at `(i, k, j)`: both have
    row-major position `(i * b + k) * c + j`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (j : Fin c) (i : Fin a) (k : Fin b)
    (hr : r.val = i.val * b + k.val) :
    shapeCast ⟨2, ![m, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[m, c]` array cast to `[a, b, c]` reads, at `(i, k, j)`, the operand at `(r, j)` with `r = i * b + k`. -/
theorem shapeCast_mc_abc_apply {a b c m : ℕ} (x : (⟨2, ![m, c]⟩ : Shape).Idx → α)
    (h : (⟨2, ![m, c]⟩ : Shape).ShapeCasts ⟨3, ![a, b, c]⟩) (i : Fin a) (k : Fin b) (j : Fin c) (r : Fin m)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-! ## Broadcasts along unit axes -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Cert.Layout3
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.KernelTile.lean ====
/-
  What one grid point adds to the accumulator.

  The body's arithmetic on a block  x0 : [16, 32, 512]  of scores and a block  x1 : [16, 512]  of labels, read one
  element at a time: the maximum over the class axis and the sum of exponentials over it are taken per (row, point)
  column, kept as a unit axis and broadcast back over the classes, so the entry (b, c, n) of the log-probabilities
  depends on the column (b, ·, n) only; the count of labels equal to a class is a sum over the 16 rows of a one-bit
  comparison, broadcast over the rows; the product of the two is summed over the points, then over the classes, then
  over the rows. So the point adds to the accumulator the sum over (b, c, n) of  term (column b n) (labels n) c .
-/
import proofs.«110663_j45251775431144_2_alg».proof.Proof.Gen.KernelIdeal.Skeleton
import proofs.«110663_j45251775431144_2_alg».proof.Proof.LossSpec
import proofs.«110663_j45251775431144_2_alg».proof.Proof.LibLayout3
import proofs.«110663_j45251775431144_2_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx
open Cert.LossSpec Cert.Layout3 Cert.LibKeepdims

/-! ## Reductions over the class axis and the kept unit axis -/

/-- A sum over one axis read as the sum over that axis's coordinates, with the side condition on the accumulator
    word spelt as an equation between the two equal words. -/
theorem add_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The maximum over the classes at (b, n) is the maximum of the column (b, ·, n). -/
theorem max_at (x0 : FVec Ideal S16x32x512 .f32) (h : S16x32x512.Reduces [1] S16x512) (hφ : FKind.Formats .f32)
    (hacc : (0xFF800000#32 : BitVec 32) = 0xFF800000#32) (b : Fin 16) (n : Fin 512) :
    multiReduction .maximumf [1] S16x512 x0 0xFF800000#32 h hφ hacc (ix2 b n) = colMax (fun k => x0 (ix3 b k n)) := by
  refine (Ideal.multiReduction_maximumf_single x0 0xFF800000#32 h hφ hacc (ix2 b n)).trans ?_
  unfold colMax
  refine congrArg (fun f => (Finset.univ : Finset (Fin 32)).fold max (Ideal.ofBits .f32 0xFF800000#32) f) ?_
  funext k
  exact congrArg x0 (funext fun a => Fin.ext (by match a with | ⟨0, _⟩ => rfl | ⟨1, _⟩ => rfl | ⟨2, _⟩ => rfl))

/-- The sum over the classes at (b, n) is the sum of the column (b, ·, n). -/
theorem sum_at (y : FVec Ideal S16x32x512 .f32) (h : S16x32x512.Reduces [1] S16x512) (hφ : FKind.Formats .f32)
    (hacc : (0x00000000#32 : BitVec 32) = 0x00000000#32) (b : Fin 16) (n : Fin 512) :
    multiReduction .add [1] S16x512 y 0x00000000#32 h hφ hacc (ix2 b n) = ∑ k : Fin 32, y (ix3 b k n) := by
  refine (Ideal.multiReduction_add_single y 0x00000000#32 h hφ hacc (ix2 b n)).trans ?_
  refine Finset.sum_congr rfl fun k _ => ?_
  exact congrArg y (funext fun a => Fin.ext (by match a with | ⟨0, _⟩ => rfl | ⟨1, _⟩ => rfl | ⟨2, _⟩ => rfl))

/-- A [16, 512] array kept as [16, 1, 512] and broadcast over the classes reads (b, n) at every (b, c, n). -/
theorem keep_at (y : FVec Ideal S16x512 .f32) (h1 : S16x512.ShapeCasts S16x1x512) (h2 : S16x1x512.Broadcasts S16x32x512)
    (b : Fin 16) (c : Fin 32) (n : Fin 512) :
    broadcastTo S16x32x512 (shapeCast S16x1x512 y h1) h2 (ix3 b c n) = y (ix2 b n) := by
  rw [broadcastTo_a1c_abc_apply, shapeCast_ac_a1c_apply]

/-! ## The body's intermediate arrays -/

/-- The scores with each column's maximum subtracted. -/
def kShift (x0 : FVec Ideal S16x32x512 .f32) : FVec Ideal S16x32x512 .f32 :=
  subf x0 (broadcastTo S16x32x512 (shapeCast S16x1x512
    (multiReduction .maximumf [1] S16x512 x0 0xFF800000#32 reduces_S16x32x512_S16x512 (.inl rfl) rfl)
    shapeCasts_S16x512_S16x1x512) broadcasts_S16x1x512_S16x32x512)

theorem kShift_at (x0 : FVec Ideal S16x32x512 .f32) (b : Fin 16) (c : Fin 32) (n : Fin 512) :
    kShift x0 (ix3 b c n) = shifted (fun k => x0 (ix3 b k n)) c := by
  unfold kShift shifted
  rw [subf_apply, keep_at, max_at]

/-- The log-probabilities. -/
def kLogp (x0 : FVec Ideal S16x32x512 .f32) : FVec Ideal S16x32x512 .f32 :=
  subf (kShift x0) (broadcastTo S16x32x512 (log (shapeCast S16x1x512
    (multiReduction .add [1] S16x512 (exp (kShift x0)) 0x00000000#32 reduces_S16x32x512_S16x512 (.inl rfl) rfl)
    shapeCasts_S16x512_S16x1x512)) broadcasts_S16x1x512_S16x32x512)

theorem kLogp_at (x0 : FVec Ideal S16x32x512 .f32) (b : Fin 16) (c : Fin 32) (n : Fin 512) :
    kLogp x0 (ix3 b c n) = logp (fun k => x0 (ix3 b k n)) c := by
  unfold kLogp logp
  rw [subf_apply, kShift_at, broadcastTo_a1c_abc_apply]
  show _ - Ideal.log (shapeCast S16x1x512 _ shapeCasts_S16x512_S16x1x512 (ix3 b (0 : Fin 1) n)) = _
  rw [shapeCast_ac_a1c_apply, sum_at]
  refine congrArg (fun s => _ - Ideal.log s) (Finset.sum_congr rfl fun (k : Fin 32) _ => ?_)
  show Ideal.exp (kShift x0 (ix3 b k n)) = _
  rw [kShift_at]

/-- The class counts, one row of them broadcast over the batch rows. -/
def kHits (x1 : IVec S16x512 32) : FVec Ideal S16x32x512 .f32 :=
  broadcastTo S16x32x512 (shapeCast S1x32x512
    (multiReduction .add [1] S32x512
      (sitofp .f32 (extui 32 (cmpi .eq (iota .tc S32x16x512 32 [0] iota_S32x16x512_d0_w32)
        (broadcastTo S32x16x512 (shapeCast S1x16x512 x1 shapeCasts_S16x512_S1x16x512) broadcasts_S1x16x512_S32x16x512))
        natLt_1_32) : FVec Ideal S32x16x512 .f32)
      0x00000000#32 reduces_S32x16x512_S32x512 (.inl rfl) rfl)
    shapeCasts_S32x512_S1x32x512) broadcasts_S1x32x512_S16x32x512

theorem kHits_at (x1 : IVec S16x512 32) (b : Fin 16) (c : Fin 32) (n : Fin 512) :
    kHits x1 (ix3 b c n) = hits (fun b' => x1 (ix2 b' n)) c := by
  unfold kHits hits
  rw [broadcastTo_1bc_abc_apply, shapeCast_ab_1ab_apply, add_single]
  refine Finset.sum_congr rfl fun (k : Fin 16) _ => ?_
  have e : reduces_S32x16x512_S32x512.lift (ix2 c n) k = ix3 c k n :=
    funext fun a => Fin.ext (by match a with | ⟨0, _⟩ => rfl | ⟨1, _⟩ => rfl | ⟨2, _⟩ => rfl)
  rw [e]
  show ((((IntOp.cmpi .eq (iota .tc S32x16x512 32 [0] iota_S32x16x512_d0_w32 (ix3 c k n))
      (broadcastTo S32x16x512 (shapeCast S1x16x512 x1 shapeCasts_S16x512_S1x16x512) broadcasts_S1x16x512_S32x16x512 (ix3 c k n))).setWidth 32).toInt : ℝ) : EReal) = _
  rw [iota_single_apply, broadcastTo_1bc_abc_apply, shapeCast_ab_1ab_apply]
  exact congrArg (fun r : ℝ => (r : EReal)) (cmp_word _ _)

/-- The weighted contributions, element by element. -/
def kProd (x0 : FVec Ideal S16x32x512 .f32) (x1 : IVec S16x512 32) : FVec Ideal S16x32x512 .f32 :=
  mulf (mulf (subf (broadcast S16x32x512 (Scalar.ofBits .f32 0x00000000#32)) (kLogp x0))
      (exp (subf (broadcast S16x32x512 (Scalar.ofBits .f32 0x00000000#32)) (kLogp x0))))
    (kHits x1)

theorem kProd_at (x0 : FVec Ideal S16x32x512 .f32) (x1 : IVec S16x512 32) (b : Fin 16) (c : Fin 32) (n : Fin 512) :
    kProd x0 x1 (ix3 b c n) = term (fun k => x0 (ix3 b k n)) (fun b' => x1 (ix2 b' n)) c := by
  unfold kProd term
  rw [mulf_apply, mulf_apply, kHits_at]
  show (Ideal.ofBits .f32 0x00000000#32 - kLogp x0 (ix3 b c n))
      * Ideal.exp (Ideal.ofBits .f32 0x00000000#32 - kLogp x0 (ix3 b c n)) * _ = _
  rw [kLogp_at, Ideal.ofBits_zero_f32]

/-! ## The three sums and the accumulation -/

/-- Summing a [16, 32, 512] array over the points, then the classes, then (as a column) the rows, leaves at the one
    entry of the [1, 1] result the sum over all (b, c, n). -/
theorem total_at (P : FVec Ideal S16x32x512 .f32) (hφ : FKind.Formats .f32)
    (hacc : (0x00000000#32 : BitVec 32) = 0x00000000#32) :
    shapeCast S1x1 (multiReduction .add [0] S1 (shapeCast S16x1 (multiReduction .add [1] S16
      (multiReduction .add [2] S16x32 P 0x00000000#32 reduces_S16x32x512_S16x32 hφ hacc)
      0x00000000#32 reduces_S16x32_S16 hφ hacc) shapeCasts_S16_S16x1)
      0x00000000#32 reduces_S16x1_S1 hφ hacc) shapeCasts_S1_S1x1 (ix2 (0 : Fin 1) (0 : Fin 1))
      = ∑ b : Fin 16, ∑ c : Fin 32, ∑ n : Fin 512, P (ix3 b c n) := by
  rw [shapeCast_a_a1_apply, add_single]
  refine Finset.sum_congr rfl fun (b : Fin 16) _ => ?_
  have e0 : reduces_S16x1_S1.lift (ix1 (0 : Fin 1)) b = ix2 b (0 : Fin 1) :=
    funext fun a => Fin.ext (by match a with | ⟨0, _⟩ => rfl | ⟨1, _⟩ => rfl)
  rw [e0, shapeCast_a_a1_apply, add_single]
  refine Finset.sum_congr rfl fun (c : Fin 32) _ => ?_
  have e1 : reduces_S16x32_S16.lift (ix1 b) c = ix2 b c :=
    funext fun a => Fin.ext (by match a with | ⟨0, _⟩ => rfl | ⟨1, _⟩ => rfl)
  rw [e1, add_single]
  refine Finset.sum_congr rfl fun (n : Fin 512) _ => ?_
  exact congrArg P (funext fun a => Fin.ext (by match a with | ⟨0, _⟩ => rfl | ⟨1, _⟩ => rfl | ⟨2, _⟩ => rfl))

/-- The point's total: the sum of the terms of its block. -/
def tileTotal (x0 : FVec Ideal S16x32x512 .f32) (x1 : IVec S16x512 32) : EReal :=
  ∑ b : Fin 16, ∑ c : Fin 32, ∑ n : Fin 512, term (fun k => x0 (ix3 b k n)) (fun b' => x1 (ix2 b' n)) c

/-- The value the body stores back into the accumulator: what it held plus the point's total. -/
theorem pay4_at (x0 : FVec Ideal S16x32x512 .f32) (x1 : IVec S16x512 32) (acc : FVec Ideal S1x1 .f32) :
    k0_pay4 (F := Ideal) x0 x1 acc (ix2 (0 : Fin 1) (0 : Fin 1)) = acc (ix2 (0 : Fin 1) (0 : Fin 1)) + tileTotal x0 x1 := by
  show acc (ix2 (0 : Fin 1) (0 : Fin 1)) + shapeCast S1x1 (multiReduction .add [0] S1 (shapeCast S16x1 (multiReduction .add [1] S16
      (multiReduction .add [2] S16x32 (kProd x0 x1) 0x00000000#32 reduces_S16x32x512_S16x32 (.inl rfl) rfl)
      0x00000000#32 reduces_S16x32_S16 (.inl rfl) rfl) shapeCasts_S16_S16x1)
      0x00000000#32 reduces_S16x1_S1 (.inl rfl) rfl) shapeCasts_S1_S1x1 (ix2 (0 : Fin 1) (0 : Fin 1)) = _
  unfold tileTotal
  refine congrArg (acc (ix2 (0 : Fin 1) (0 : Fin 1)) + ·) ((total_at (kProd x0 x1) (.inl rfl) rfl).trans ?_)
  exact Finset.sum_congr rfl fun b _ => Finset.sum_congr rfl fun c _ => Finset.sum_congr rfl fun n _ => kProd_at x0 x1 b c n

end Cert.KernelIdeal.Tile

end
-- ==== Proof.KernelCases.lean ====
/-
  What the body leaves behind, case by case.

  At the first grid point the body stores zero into the accumulator, reads it back, adds the point's total and stores
  the sum; at every later point it reads the accumulator as the point before left it, adds and stores; at the last point
  it also reads the new accumulator back and stores its quotient by the number of points into the output block. Each
  store covers its whole [1, 1] buffer and each load reads a whole buffer, so what a buffer holds after the body is the
  last value stored into it, written over the body's loads: the three lemmas below, at any float instance.
-/
import proofs.«110663_j45251775431144_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The first point: the accumulator ends at zero plus the point's total (the zero it stored and read back). -/
theorem scratch_first (c : Dev nD) (i : grid0.Coords) (a1 : Memref sig .tc .vmem S16x32x512 .f32) (h1 : a1.IsWhole)
    (a2 : Memref sig .tc .vmem S16x512 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S16x32x512 .f32) (x1 : Vec F S16x512 .i32) :
    sout0_A_0 c i a1 h1 a2 h2 a3 h3 a4 h4 hc0 hc1 x0 x1 = k0_pay1 (k0_pay4 x0 x1 k0_pay3) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h4.read_unread, View.ld_unit_zero (S := S16x32x512) hz3,
    View.ld_unit_zero (S := S16x512) hz, View.ld_unit_zero (S := S1x1) hz]

/-- A middle point: the accumulator ends at what the point before left plus the point's total. -/
theorem scratch_middle (c : Dev nD) (i : grid0.Coords) (a1 : Memref sig .tc .vmem S16x32x512 .f32) (h1 : a1.IsWhole)
    (a2 : Memref sig .tc .vmem S16x512 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S16x32x512 .f32) (x1 : Vec F S16x512 .i32) (xs0 : Vec F S1x1 .f32) :
    sout0_B_0 c i a1 h1 a2 h2 a3 h3 a4 h4 hc0 hc1 x0 x1 xs0 = k0_pay1 (k0_pay4 x0 x1 xs0) := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S16x32x512) hz3,
    View.ld_unit_zero (S := S16x512) hz, View.ld_unit_zero (S := S1x1) hz]

/-- The last point: the accumulator likewise, -/
theorem scratch_last (c : Dev nD) (i : grid0.Coords) (a1 : Memref sig .tc .vmem S16x32x512 .f32) (h1 : a1.IsWhole)
    (a2 : Memref sig .tc .vmem S16x512 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S16x32x512 .f32) (x1 : Vec F S16x512 .i32) (xs0 : Vec F S1x1 .f32) :
    sout0_C_0 c i a1 h1 a2 h2 a3 h3 a4 h4 hc0 hc1 x0 x1 xs0 = k0_pay1 (k0_pay4 x0 x1 xs0) := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S16x32x512) hz3,
    View.ld_unit_zero (S := S16x512) hz, View.ld_unit_zero (S := S1x1) hz]

/-- and the output block at the quotient of that new accumulator by the number of points. -/
theorem out_last (c : Dev nD) (i : grid0.Coords) (a1 : Memref sig .tc .vmem S16x32x512 .f32) (h1 : a1.IsWhole)
    (a2 : Memref sig .tc .vmem S16x512 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S16x32x512 .f32) (x1 : Vec F S16x512 .i32) (xs0 : Vec F S1x1 .f32) :
    out0_C_2 c i a1 h1 a2 h2 a3 h3 a4 h4 hc0 hc1 x0 x1 xs0 = k0_pay2 (k0_pay1 (k0_pay4 x0 x1 xs0)) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S16x32x512) hz3,
    View.ld_unit_zero (S := S16x512) hz, View.ld_unit_zero (S := S1x1) hz]

end Cert.KernelIdeal.Cases

end
-- ==== Proof.KernelAcc.lean ====
/-
  The accumulator, point by point.

  The accumulator after grid point n holds zero plus the totals of the points 0 … n: at the first point the body stores
  zero, reads it back and adds the point's total; at every later point it adds to what the point before left (induction
  on the point). At the last point the output block receives that sum divided by the number of points.
-/
import proofs.«110663_j45251775431144_2_alg».proof.Proof.Gen.KernelIdeal.Frame
import proofs.«110663_j45251775431144_2_alg».proof.Proof.KernelTile
import proofs.«110663_j45251775431144_2_alg».proof.Proof.KernelCases
import Idealize.ShloMosaic.Lib.Pipeline.Value

noncomputable section

open scoped BigOperators
open Idealize.ShloMosaic Idealize.ShloMosaic.TcCoe Idealize.SL.Sem
open Idealize.ShloMosaic.Pipeline (Dat)

namespace Cert.KernelIdeal.Loss

open Cert.KernelIdeal Cert.KernelIdeal.Gen Cert.KernelIdeal.Tile Cert.KernelIdeal.Cases Idealize.ShloMosaic.ValueIdx

variable (m : (ℓ : Loc nD τ sig) → Buf (Elt Ideal) ℓ)

/-! ## One step of the accumulation, on any blocks -/

/-- The accumulator after a point: what it held plus the point's total. -/
theorem step_at (x0 : FVec Ideal S16x32x512 .f32) (x1 : IVec S16x512 32) (acc : FVec Ideal S1x1 .f32) :
    k0_pay1 (F := Ideal) (k0_pay4 (F := Ideal) x0 x1 acc) (ix2 (0 : Fin 1) (0 : Fin 1))
      = acc (ix2 (0 : Fin 1) (0 : Fin 1)) + tileTotal x0 x1 := by
  unfold k0_pay1
  rw [shapeCast_self]
  exact pay4_at x0 x1 acc

/-- The zero the first point stores. -/
theorem zero_at : k0_pay3 (F := Ideal) (ix2 (0 : Fin 1) (0 : Fin 1)) = Ideal.ofBits .f32 0x00000000#32 := by
  unfold k0_pay3
  rw [shapeCast_self]
  rfl

/-- The quotient the last point stores. -/
theorem quot_at (v : FVec Ideal S1x1 .f32) :
    k0_pay2 (F := Ideal) v (ix2 (0 : Fin 1) (0 : Fin 1))
      = Ideal.div (v (ix2 (0 : Fin 1) (0 : Fin 1))) (Ideal.ofBits .f32 0x48000000#32) := rfl

/-! ## The accumulator point by point -/

/-- The total of grid point s (zero beyond the grid). -/
def pointTotal (c : Dev nD) (s : ℕ) : EReal :=
  if h : s < cfg0.N then tileTotal (iblk m c 0 ⟨s, h⟩ : Vec Ideal S16x32x512 .f32) (iblk m c 1 ⟨s, h⟩ : Vec Ideal S16x512 .i32) else 0

theorem pointTotal_of_lt (c : Dev nD) (t : Fin cfg0.N) :
    pointTotal m c t.val = tileTotal (iblk m c 0 t : Vec Ideal S16x32x512 .f32) (iblk m c 1 t : Vec Ideal S16x512 .i32) :=
  dif_pos t.isLt

/-- The first point leaves zero plus its total. -/
theorem acc_first (c : Dev nD) (t : Fin cfg0.N) (h0 : t.val % 256 = 0) (h1 : ¬t.val % 256 = 255) :
    (outsAt0 m c t.val t.isLt).2 (ix2 (0 : Fin 1) (0 : Fin 1)) = Ideal.ofBits .f32 0x00000000#32 + pointTotal m c t.val := by
  have e2 : (outsAt0 m c t.val t.isLt).2 = sout0_A_0 c (grid0.coords t) (ms0_0 t) (hs0_0 t) (ms0_1 t) (hs0_1 t) (ms0_2 t) (hs0_2 t) scM0_0 (Memref.isWhole_whole _) ((hcond0_0 t).mpr h0) (fun hh => h1 ((hcond0_1 t).mp hh)) (iblk m c 0 t) (iblk m c 1 t) :=
    congrArg Prod.snd (outsAt0_A m c t h0 h1)
  have e3 := scratch_first (F := Ideal) c (grid0.coords t) (ms0_0 t) (hs0_0 t) (ms0_1 t) (hs0_1 t) (ms0_2 t) (hs0_2 t) scM0_0 (Memref.isWhole_whole _) ((hcond0_0 t).mpr h0) (fun hh => h1 ((hcond0_1 t).mp hh)) (iblk m c 0 t) (iblk m c 1 t)
  rw [pointTotal_of_lt, ← zero_at]
  exact (congrFun (e2.trans e3) (ix2 (0 : Fin 1) (0 : Fin 1))).trans (step_at _ _ _)

/-- A middle point adds its total to what the point before left. -/
theorem acc_middle (c : Dev nD) (t : Fin cfg0.N) (h0 : ¬t.val % 256 = 0) (h1 : ¬t.val % 256 = 255) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + pointTotal m c t.val := by
  have e2 : (outsAt0 m c t.val t.isLt).2 = sout0_B_0 c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh)) (iblk m c 0 t) (iblk m c 1 t)
      (outsAt0 m c (t.val - 1) (Nat.lt_of_le_of_lt (Nat.sub_le _ _) t.isLt)).2 :=
    congrArg Prod.snd (outsAt0_B m c t h0 h1)
  have e3 := scratch_middle (F := Ideal) c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh)) (iblk m c 0 t) (iblk m c 1 t)
    (outsAt0 m c (t.val - 1) (Nat.lt_of_le_of_lt (Nat.sub_le _ _) t.isLt)).2
  rw [pointTotal_of_lt]
  exact (congrFun (e2.trans e3) (ix2 (0 : Fin 1) (0 : Fin 1))).trans (step_at _ _ _)

/-- So does the last point, -/
theorem acc_last (c : Dev nD) (t : Fin cfg0.N) (h0 : ¬t.val % 256 = 0) (h1 : t.val % 256 = 255) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + pointTotal m c t.val := by
  have e2 : (outsAt0 m c t.val t.isLt).2 = sout0_C_0 c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2 :=
    congrArg Prod.snd (outsAt0_C m c t h0 h1)
  have e3 := scratch_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2
  rw [pointTotal_of_lt]
  exact (congrFun (e2.trans e3) (ix2 (0 : Fin 1) (0 : Fin 1))).trans (step_at _ _ _)

/-- and it stores into the output block the quotient of the new accumulator by the number of points. -/
theorem out_last_at (c : Dev nD) (t : Fin cfg0.N) (h0 : ¬t.val % 256 = 0) (h1 : t.val % 256 = 255) :
    (outsAt0 m c t.val t.isLt).1 (ix2 (0 : Fin 1) (0 : Fin 1))
      = Ideal.div ((outsAt0 m c (t.val - 1) (Nat.lt_of_le_of_lt (Nat.sub_le _ _) t.isLt)).2 (ix2 (0 : Fin 1) (0 : Fin 1)) + pointTotal m c t.val)
          (Ideal.ofBits .f32 0x48000000#32) := by
  have e2 : (outsAt0 m c t.val t.isLt).1 = out0_C_2 c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2 :=
    congrArg Prod.fst (outsAt0_C m c t h0 h1)
  have e3 := out_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2
  rw [pointTotal_of_lt]
  refine (congrFun (e2.trans e3) (ix2 (0 : Fin 1) (0 : Fin 1))).trans ((quot_at _).trans ?_)
  exact congrArg (fun s => Ideal.div s (Ideal.ofBits .f32 0x48000000#32)) (step_at _ _ _)

/-- The accumulator after point n: zero plus the totals of the points up to n. -/
theorem acc_eq (c : Dev nD) : ∀ (n : ℕ) (h : n < cfg0.N),
    (outsAt0 m c n h).2 (ix2 (0 : Fin 1) (0 : Fin 1))
      = Ideal.ofBits .f32 0x00000000#32 + ∑ s ∈ Finset.range (n + 1), pointTotal m c s
  | 0, h => by
    rw [Finset.sum_range_one]
    exact acc_first m c ⟨0, h⟩ (Nat.zero_mod _) (by show ¬ 0 % 256 = 255; decide)
  | n + 1, h => by
    have hN : cfg0.N = 256 := N_0
    have h0 : ¬ (⟨n + 1, h⟩ : Fin cfg0.N).val % 256 = 0 := by dsimp only; omega
    have ih := acc_eq c n (Nat.lt_of_succ_lt h)
    rw [Finset.sum_range_succ _ (n + 1), ← add_assoc, ← ih]
    by_cases h1 : (⟨n + 1, h⟩ : Fin cfg0.N).val % 256 = 255
    · exact acc_last m c ⟨n + 1, h⟩ h0 h1
    · exact acc_middle m c ⟨n + 1, h⟩ h0 h1

/-- The last grid point. -/
abbrev tLast : Fin cfg0.N := ⟨255, by rw [show cfg0.N = 256 from N_0]; decide⟩

/-- The loss as the kernel forms it: zero plus the 256 points' totals, divided by the number of points. -/
def lossValue (c : Dev nD) : EReal :=
  Ideal.div (Ideal.ofBits .f32 0x00000000#32 + ∑ s ∈ Finset.range 256, pointTotal m c s) (Ideal.ofBits .f32 0x48000000#32)

/-- What the output block holds after the last point. -/
theorem out_eq (c : Dev nD) :
    (outsAt0 m c tLast.val tLast.isLt).1 (ix2 (0 : Fin 1) (0 : Fin 1)) = lossValue m c := by
  refine (out_last_at m c tLast (by show ¬ 255 % 256 = 0; decide) (by show 255 % 256 = 255; decide)).trans ?_
  unfold lossValue
  refine congrArg (fun s => Ideal.div s (Ideal.ofBits .f32 0x48000000#32)) ?_
  rw [acc_eq m c (tLast.val - 1) (Nat.lt_of_le_of_lt (Nat.sub_le _ _) tLast.isLt)]
  rw [show (tLast : Fin cfg0.N).val - 1 + 1 = 255 from rfl, show (tLast : Fin cfg0.N).val = 255 from rfl,
    Finset.sum_range_succ _ 255, add_assoc]

end Cert.KernelIdeal.Loss

end
-- ==== Proof.KernelRun.lean ====
/-
  The kernel's run, read.

  The output block after the last point is the only block of the [1, 1] result array, and the last point is the only
  one written back, so the array ends holding that block; the host's reshape after the region reads its one entry as a
  scalar: the loss as the kernel forms it.
-/
import proofs.«110663_j45251775431144_2_alg».proof.Proof.Gen.KernelIdeal.Frame
import proofs.«110663_j45251775431144_2_alg».proof.Proof.KernelAcc
import Idealize.ShloMosaic.Lib.Pipeline.Value
import Idealize.ShloMosaic.Lib.StableHlo.Run
import Idealize.ShloMosaic.Lib.Tactic

-- the facts decided over the grid, one at a time
set_option Elab.async false

noncomputable section

open scoped BigOperators
open Idealize.ShloMosaic Idealize.ShloMosaic.TcCoe Idealize.SL.Sem
open Idealize.ShloMosaic.Pipeline (Dat)

namespace Cert.KernelIdeal.LossRun

open Cert.KernelIdeal Cert.KernelIdeal.Gen Cert.KernelIdeal.Loss Idealize.ShloMosaic.ValueIdx

variable (m : (ℓ : Loc nD τ sig) → Buf (Elt Ideal) ℓ) (ρ : Dev nD → PrngReg)

-- what the buffers hold point by point is used through the accumulation's lemmas only, never unfolded
attribute [local irreducible] Cert.KernelIdeal.Gen.outsAt0

/-- The output block after the last point holds, at its one entry, the loss as the kernel forms it. -/
theorem last_block_at (c : Dev nD) :
    ((dats m 0 c).after 2 tLast : Vec Ideal S1x1 .f32) (ix2 (0 : Fin 1) (0 : Fin 1)) = lossValue m c :=
  (congrFun (after0_2 m c tLast) (ix2 (0 : Fin 1) (0 : Fin 1))).trans (out_eq m c)

/-- The output window's block is the block at (0, 0) at every grid point, -/
theorem out_idx : ∀ t : Fin cfg0.N, win0_2.index t 0 = 0 ∧ win0_2.index t 1 = 0 :=
  (by decide +kernel : ∀ t : Fin grid0.N, win0_2.index t 0 = 0 ∧ win0_2.index t 1 = 0)
/-- and is never cut: its extent is the window's, [1, 1]. -/
theorem out_xsize : ∀ t : Fin cfg0.N, win0_2.xsize (grid0.coords t) 0 = 1 ∧ win0_2.xsize (grid0.coords t) 1 = 1 :=
  (by decide +kernel : ∀ t : Fin grid0.N, win0_2.xsize (grid0.coords t) 0 = 1 ∧ win0_2.xsize (grid0.coords t) 1 = 1)

theorem last_index : (fun a => win0_2.index tLast a * main_v0.ty.shape.size a) = fun _ => 0 :=
  funext fun a => by
    match a with
    | ⟨0, _⟩ => show win0_2.index tLast 0 * 1 = 0; rw [(out_idx tLast).1]
    | ⟨1, _⟩ => show win0_2.index tLast 1 * 1 = 0; rw [(out_idx tLast).2]

/-- The one write-back, at the last point, writes the block the body left there: the block at (0, 0) of the [1, 1]
    array read through zero offsets is the array. -/
theorem flushed_of (c : Dev nD) (R : Buf (Elt Ideal) ((c : Thread nD τ).loc main_v0)) (hR : (dats m 0 c).after 2 tLast = R)
    (t : Fin cfg0.N) (hf : (cfg0.win 2).flush t = true) :
    (dats m 0 c).flushed 2 t = ((cfg0.win 2).blk t).view.read (Elt Ideal) R := by
  have hN : cfg0.N = 256 := N_0
  have h3 : t.val = 255 := by have := (flush0_2 t).mp hf; have := t.isLt; omega
  obtain rfl : t = tLast := Fin.ext h3
  show (cfg0.win 2).cut (grid0.coords tLast) ((dats m 0 c).after 2 tLast) = _
  rw [hR]
  exact (Memref.read_access_unit_zero (Elt Ideal) main_v0 last_index (fun a => by rw [congrFun last_index a]; simp) R).symm

/-- The last point's block covers the array. -/
theorem covered (i : main_v0.ty.shape.Idx) :
    ∃ t : Fin cfg0.N, (cfg0.win 2).flush t = true ∧ i ∈ ((cfg0.win 2).blk t).view.set :=
  ⟨tLast, (flush0_2 tLast).mpr (by show 255 % 256 = 255; decide), by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * 1 ≤ (i 0 : Nat) ∧ (i 0 : Nat) < win0_2.index tLast 0 * 1 + win0_2.xsize (grid0.coords tLast) 0
                  rw [(out_idx tLast).1, (out_xsize tLast).1]; omega
      | ⟨1, _⟩ => show win0_2.index tLast 1 * 1 ≤ (i 1 : Nat) ∧ (i 1 : Nat) < win0_2.index tLast 1 * 1 + win0_2.xsize (grid0.coords tLast) 1
                  rw [(out_idx tLast).2, (out_xsize tLast).2]; omega⟩

/-- So the result array ends holding the output block after the last point. -/
theorem final_o (c : Dev nD) : (dats m 0 c).arrAt 2 cfg0.N = (dats m 0 c).after 2 tLast :=
  (dats m 0 c).arrAt_eq_of_cover 2 ((dats m 0 c).after 2 tLast) (flushed_of m c _ rfl) (fun i => covered i)

/-- The scalar the reshape after the region leaves is the one entry of whatever the result array ends holding. -/
theorem tail_of (c : Dev nD) (R : Buf (Elt Ideal) ((c : Thread nD τ).loc main_v0)) (hfinal : (dats m 0 c).arrAt 2 cfg0.N = R) :
    Pipeline.afterTail₀ cfgs (dats m) 0 (V0 m) [hostOps1] c main_v1 = fun _ => R (ix2 (0 : Fin 1) (0 : Fin 1)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0) = R :=
    (Pipeline.withArrays_arr spec0 launch0.win.arr_inj c _ _ 2).trans hfinal
  funext i
  show shapeCast S_ (Pipeline.withArrays (cfgs 0).spec c (V0 m c) (fun w => (dats m 0 c).arrAt w (cfgs 0).N) (Proc.devRef .tc main_v0))
    shapeCasts_S1x1_S_ i = _
  rw [hw]
  exact shapeCast_apply R shapeCasts_S1x1_S_ i (ix2 (0 : Fin 1) (0 : Fin 1)) (by
    show ((⟨2, ![1, 1]⟩ : Shape).rowMajor (ix2 (0 : Fin 1) (0 : Fin 1))).val = (Shape.rowMajorPi _ i).val
    rw [Shape.rowMajor_val_two, Shape.rowMajorPi_zero] <;> rfl)

/-- The scalar after the run: the loss as the kernel forms it. -/
theorem tail_eq (c : Dev nD) :
    Pipeline.afterTail₀ cfgs (dats m) 0 (V0 m) [hostOps1] c main_v1 = fun _ => lossValue m c :=
  (tail_of m c _ (final_o m c)).trans (funext fun _ => last_block_at m c)

/-- The run, read: the result at the loss as the kernel forms it, the arguments unchanged. -/
theorem run : θ_run defs (onTc (τ := τ) (main (F := Ideal))) ⟨m, fun _ => 0, ρ⟩ fun r => ∀ c : Dev nD,
      r.2.mem ((c.tc : Thread nD τ).loc main_v1) = (fun _ => lossValue m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (Pipeline.mem_restRefs_of main_v1 rfl (fun w => by fin_cases w <;> decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.LossRun

end
-- ==== Proof.RefRun.lean ====
/-
  The reference's run: its 34 host operations listed in program order (a called function's operations in its call's
  place), and what every weakly fair execution of them ends with — the result buffer at the last stage's value
  `val_main_v11` of the two argument arrays (the stages, one per operation, are those of the imported module), the
  arguments unchanged. The result is stated over the stages rather than as one composed expression: the stage of each
  operation names its operands' stages, so the statement stays small although the log-softmax is used three times.

  The operations of the two called functions are written over references that carry the type of their contents, and
  move a value to and from the buffer's own type along the equation of the two; at each of these literal buffers the two
  types are one, the transports are the identity, and the operation is the plain operation on the same buffers
  (`e1` … : one equation per operation, each by computation, the two reductions kept folded meanwhile). The contents
  after the run are then read off the plain list, where no transport stands between an operation's function and its
  operands.
-/
import proofs.«110663_j45251775431144_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- @main's 34 operations, in order, as the program spells them: a called function's operations stand in its call's
    place, over typed references to the buffers that call names. -/
abbrev opsTyped : List (HloOp τ sig (Elt F)) :=
  [ TRef.nullary (TRef.of (T := ⟨S_, .f32⟩) main_call0_cst) (constant S_ .f32 0xFF800000#32),
    TRef.binary (TRef.of (T := ⟨S16x32x131072, .f32⟩) main_arg0) (TRef.of (T := ⟨S_, .f32⟩) main_call0_cst) (TRef.of (T := ⟨S16x131072, .f32⟩) main_call0_v0) (fun x v => Host.reduce FloatOps.maximumf x v reducesTo_S16x32x131072_S16x131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16x131072, .f32⟩) main_call0_v1) (broadcastInDim S16x131072 ![] bcast_S_S16x131072),
    TRef.binary (TRef.of (T := ⟨S16x131072, .f32⟩) main_call0_v1) (TRef.of (T := ⟨S16x131072, .f32⟩) main_call0_v0) (TRef.of (T := ⟨S16x131072, .f32⟩) main_call0_v2) maximumf,
    TRef.unary (TRef.of (T := ⟨S16x131072, .f32⟩) main_call0_v2) (TRef.of (T := ⟨S16x1x131072, .f32⟩) main_call0_v3) (broadcastInDim S16x1x131072 ![0, 2] bcast_S16x131072_S16x1x131072_0_2),
    TRef.unary (TRef.of (T := ⟨S16x1x131072, .f32⟩) main_call0_v3) (TRef.of (T := ⟨S16x32x131072, .f32⟩) main_call0_v4) (broadcastInDim S16x32x131072 ![0, 1, 2] bcast_S16x1x131072_S16x32x131072_0_1_2),
    TRef.binary (TRef.of (T := ⟨S16x32x131072, .f32⟩) main_arg0) (TRef.of (T := ⟨S16x32x131072, .f32⟩) main_call0_v4) (TRef.of (T := ⟨S16x32x131072, .f32⟩) main_call0_v5) subf,
    TRef.unary (TRef.of (T := ⟨S16x32x131072, .f32⟩) main_call0_v5) (TRef.of (T := ⟨S16x32x131072, .f32⟩) main_call0_v6) Host.exp,
    TRef.nullary (TRef.of (T := ⟨S_, .f32⟩) main_call0_cst_1) (constant S_ .f32 0x00000000#32),
    TRef.binary (TRef.of (T := ⟨S16x32x131072, .f32⟩) main_call0_v6) (TRef.of (T := ⟨S_, .f32⟩) main_call0_cst_1) (TRef.of (T := ⟨S16x131072, .f32⟩) main_call0_v7) (fun x v => Host.reduceAdd x v reducesTo_S16x32x131072_S16x131072_d1 h_S_),
    TRef.unary (TRef.of (T := ⟨S16x131072, .f32⟩) main_call0_v7) (TRef.of (T := ⟨S16x1x131072, .f32⟩) main_call0_v8) (broadcastInDim S16x1x131072 ![0, 2] bcast_S16x131072_S16x1x131072_0_2),
    TRef.unary (TRef.of (T := ⟨S16x1x131072, .f32⟩) main_call0_v8) (TRef.of (T := ⟨S16x1x131072, .f32⟩) main_call0_v9) Host.log,
    TRef.unary (TRef.of (T := ⟨S16x1x131072, .f32⟩) main_call0_v9) (TRef.of (T := ⟨S16x32x131072, .f32⟩) main_call0_v10) (broadcastInDim S16x32x131072 ![0, 1, 2] bcast_S16x1x131072_S16x32x131072_0_1_2),
    TRef.binary (TRef.of (T := ⟨S16x32x131072, .f32⟩) main_call0_v5) (TRef.of (T := ⟨S16x32x131072, .f32⟩) main_call0_v10) (TRef.of (T := ⟨S16x32x131072, .f32⟩) main_v0) subf,
    unary main_v0 main_v1 (Host.exp : (⟨S16x32x131072, .f32⟩ : BufTy).Contents (Elt F) → (⟨S16x32x131072, .f32⟩ : BufTy).Contents (Elt F)),
    unary main_v0 main_v2 (Host.negf : (⟨S16x32x131072, .f32⟩ : BufTy).Contents (Elt F) → (⟨S16x32x131072, .f32⟩ : BufTy).Contents (Elt F)),
    binary main_v2 main_v1 main_v3 (Host.divf : (⟨S16x32x131072, .f32⟩ : BufTy).Contents (Elt F) → (⟨S16x32x131072, .f32⟩ : BufTy).Contents (Elt F) → (⟨S16x32x131072, .f32⟩ : BufTy).Contents (Elt F)),
    TRef.unary (TRef.of (T := ⟨S16x131072, .i32⟩) main_arg1) (TRef.of (T := ⟨S16x131072x1, .i32⟩) main_call1_v0) (broadcastInDim S16x131072x1 ![0, 1] bcast_S16x131072_S16x131072x1_0_1),
    TRef.nullary (TRef.of (T := ⟨S1x1x32, .i32⟩) main_call1_v1) (iotaInDim S1x1x32 32 2),
    TRef.unary (TRef.of (T := ⟨S16x131072x1, .i32⟩) main_call1_v0) (TRef.of (T := ⟨S16x131072x32, .i32⟩) main_call1_v2) (broadcastInDim S16x131072x32 ![0, 1, 2] bcast_S16x131072x1_S16x131072x32_0_1_2),
    TRef.unary (TRef.of (T := ⟨S1x1x32, .i32⟩) main_call1_v1) (TRef.of (T := ⟨S16x131072x32, .i32⟩) main_call1_v3) (broadcastInDim S16x131072x32 ![0, 1, 2] bcast_S1x1x32_S16x131072x32_0_1_2),
    TRef.binary (TRef.of (T := ⟨S16x131072x32, .i32⟩) main_call1_v2) (TRef.of (T := ⟨S16x131072x32, .i32⟩) main_call1_v3) (TRef.of (T := ⟨S16x131072x32, .i1⟩) main_call1_v4) (cmpi .eq),
    TRef.unary (TRef.of (T := ⟨S16x131072x32, .i1⟩) main_call1_v4) (TRef.of (T := ⟨S16x131072x32, .f32⟩) main_v4) (uitofp .f32),
    nullary main_cst (constant S_ .f32 0x00000000#32),
    binary main_v4 main_cst main_v5 ((fun x v => Host.reduceAdd x v reducesTo_S16x131072x32_S131072x32_d0 h_S_) : (⟨S16x131072x32, .f32⟩ : BufTy).Contents (Elt F) → (⟨S_, .f32⟩ : BufTy).Contents (Elt F) → (⟨S131072x32, .f32⟩ : BufTy).Contents (Elt F)),
    unary main_v5 main_v6 ((transpose S32x131072 [1, 0] · transposes_S131072x32_S32x131072_1_0) : (⟨S131072x32, .f32⟩ : BufTy).Contents (Elt F) → (⟨S32x131072, .f32⟩ : BufTy).Contents (Elt F)),
    unary main_v6 main_v7 (broadcastInDim S1x32x131072 ![1, 2] bcast_S32x131072_S1x32x131072_1_2 : (⟨S32x131072, .f32⟩ : BufTy).Contents (Elt F) → (⟨S1x32x131072, .f32⟩ : BufTy).Contents (Elt F)),
    unary main_v7 main_v8 (broadcastInDim S16x32x131072 ![0, 1, 2] bcast_S1x32x131072_S16x32x131072_0_1_2 : (⟨S1x32x131072, .f32⟩ : BufTy).Contents (Elt F) → (⟨S16x32x131072, .f32⟩ : BufTy).Contents (Elt F)),
    binary main_v3 main_v8 main_v9 (mulf : (⟨S16x32x131072, .f32⟩ : BufTy).Contents (Elt F) → (⟨S16x32x131072, .f32⟩ : BufTy).Contents (Elt F) → (⟨S16x32x131072, .f32⟩ : BufTy).Contents (Elt F)),
    nullary main_cst_0 (constant S_ .f32 0x00000000#32),
    binary main_v9 main_cst_0 main_v10 ((fun x v => Host.reduceAdd x v reducesTo_S16x32x131072_S_d0_1_2 h_S_) : (⟨S16x32x131072, .f32⟩ : BufTy).Contents (Elt F) → (⟨S_, .f32⟩ : BufTy).Contents (Elt F) → (⟨S_, .f32⟩ : BufTy).Contents (Elt F)),
    nullary main_cst_1 (constant S_ .f32 0x48000000#32),
    binary main_v10 main_cst_1 main_v11 (Host.divf : (⟨S_, .f32⟩ : BufTy).Contents (Elt F) → (⟨S_, .f32⟩ : BufTy).Contents (Elt F) → (⟨S_, .f32⟩ : BufTy).Contents (Elt F)) ]

/-- The same 34 operations, each as the plain operation on its buffers. -/
abbrev ops : List (HloOp τ sig (Elt F)) :=
  [ nullary main_call0_cst ((constant S_ .f32 0xFF800000#32) : (⟨S_, .f32⟩ : BufTy).Contents (Elt F)),
    binary main_arg0 main_call0_cst main_call0_v0 ((fun x v => Host.reduce FloatOps.maximumf x v reducesTo_S16x32x131072_S16x131072_d1 h_S_) : (⟨S16x32x131072, .f32⟩ : BufTy).Contents (Elt F) → (⟨S_, .f32⟩ : BufTy).Contents (Elt F) → (⟨S16x131072, .f32⟩ : BufTy).Contents (Elt F)),
    nullary main_call0_cst_0 ((constant S_ .f32 0xFF800000#32) : (⟨S_, .f32⟩ : BufTy).Contents (Elt F)),
    unary main_call0_cst_0 main_call0_v1 ((broadcastInDim S16x131072 ![] bcast_S_S16x131072) : (⟨S_, .f32⟩ : BufTy).Contents (Elt F) → (⟨S16x131072, .f32⟩ : BufTy).Contents (Elt F)),
    binary main_call0_v1 main_call0_v0 main_call0_v2 (maximumf : (⟨S16x131072, .f32⟩ : BufTy).Contents (Elt F) → (⟨S16x131072, .f32⟩ : BufTy).Contents (Elt F) → (⟨S16x131072, .f32⟩ : BufTy).Contents (Elt F)),
    unary main_call0_v2 main_call0_v3 ((broadcastInDim S16x1x131072 ![0, 2] bcast_S16x131072_S16x1x131072_0_2) : (⟨S16x131072, .f32⟩ : BufTy).Contents (Elt F) → (⟨S16x1x131072, .f32⟩ : BufTy).Contents (Elt F)),
    unary main_call0_v3 main_call0_v4 ((broadcastInDim S16x32x131072 ![0, 1, 2] bcast_S16x1x131072_S16x32x131072_0_1_2) : (⟨S16x1x131072, .f32⟩ : BufTy).Contents (Elt F) → (⟨S16x32x131072, .f32⟩ : BufTy).Contents (Elt F)),
    binary main_arg0 main_call0_v4 main_call0_v5 (subf : (⟨S16x32x131072, .f32⟩ : BufTy).Contents (Elt F) → (⟨S16x32x131072, .f32⟩ : BufTy).Contents (Elt F) → (⟨S16x32x131072, .f32⟩ : BufTy).Contents (Elt F)),
    unary main_call0_v5 main_call0_v6 (Host.exp : (⟨S16x32x131072, .f32⟩ : BufTy).Contents (Elt F) → (⟨S16x32x131072, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S16x32x131072_S16x131072_d1 h_S_) : (⟨S16x32x131072, .f32⟩ : BufTy).Contents (Elt F) → (⟨S_, .f32⟩ : BufTy).Contents (Elt F) → (⟨S16x131072, .f32⟩ : BufTy).Contents (Elt F)),
    unary main_call0_v7 main_call0_v8 ((broadcastInDim S16x1x131072 ![0, 2] bcast_S16x131072_S16x1x131072_0_2) : (⟨S16x131072, .f32⟩ : BufTy).Contents (Elt F) → (⟨S16x1x131072, .f32⟩ : BufTy).Contents (Elt F)),
    unary main_call0_v8 main_call0_v9 (Host.log : (⟨S16x1x131072, .f32⟩ : BufTy).Contents (Elt F) → (⟨S16x1x131072, .f32⟩ : BufTy).Contents (Elt F)),
    unary main_call0_v9 main_call0_v10 ((broadcastInDim S16x32x131072 ![0, 1, 2] bcast_S16x1x131072_S16x32x131072_0_1_2) : (⟨S16x1x131072, .f32⟩ : BufTy).Contents (Elt F) → (⟨S16x32x131072, .f32⟩ : BufTy).Contents (Elt F)),
    binary main_call0_v5 main_call0_v10 main_v0 (subf : (⟨S16x32x131072, .f32⟩ : BufTy).Contents (Elt F) → (⟨S16x32x131072, .f32⟩ : BufTy).Contents (Elt F) → (⟨S16x32x131072, .f32⟩ : BufTy).Contents (Elt F)),
    unary main_v0 main_v1 (Host.exp : (⟨S16x32x131072, .f32⟩ : BufTy).Contents (Elt F) → (⟨S16x32x131072, .f32⟩ : BufTy).Contents (Elt F)),
    unary main_v0 main_v2 (Host.negf : (⟨S16x32x131072, .f32⟩ : BufTy).Contents (Elt F) → (⟨S16x32x131072, .f32⟩ : BufTy).Contents (Elt F)),
    binary main_v2 main_v1 main_v3 (Host.divf : (⟨S16x32x131072, .f32⟩ : BufTy).Contents (Elt F) → (⟨S16x32x131072, .f32⟩ : BufTy).Contents (Elt F) → (⟨S16x32x131072, .f32⟩ : BufTy).Contents (Elt F)),
    unary main_arg1 main_call1_v0 ((broadcastInDim S16x131072x1 ![0, 1] bcast_S16x131072_S16x131072x1_0_1) : (⟨S16x131072, .i32⟩ : BufTy).Contents (Elt F) → (⟨S16x131072x1, .i32⟩ : BufTy).Contents (Elt F)),
    nullary main_call1_v1 ((iotaInDim S1x1x32 32 2) : (⟨S1x1x32, .i32⟩ : BufTy).Contents (Elt F)),
    unary main_call1_v0 main_call1_v2 ((broadcastInDim S16x131072x32 ![0, 1, 2] bcast_S16x131072x1_S16x131072x32_0_1_2) : (⟨S16x131072x1, .i32⟩ : BufTy).Contents (Elt F) → (⟨S16x131072x32, .i32⟩ : BufTy).Contents (Elt F)),
    unary main_call1_v1 main_call1_v3 ((broadcastInDim S16x131072x32 ![0, 1, 2] bcast_S1x1x32_S16x131072x32_0_1_2) : (⟨S1x1x32, .i32⟩ : BufTy).Contents (Elt F) → (⟨S16x131072x32, .i32⟩ : BufTy).Contents (Elt F)),
    binary main_call1_v2 main_call1_v3 main_call1_v4 ((cmpi .eq) : (⟨S16x131072x32, .i32⟩ : BufTy).Contents (Elt F) → (⟨S16x131072x32, .i32⟩ : BufTy).Contents (Elt F) → (⟨S16x131072x32, .i1⟩ : BufTy).Contents (Elt F)),
    unary main_call1_v4 main_v4 ((uitofp .f32) : (⟨S16x131072x32, .i1⟩ : BufTy).Contents (Elt F) → (⟨S16x131072x32, .f32⟩ : BufTy).Contents (Elt F)),
    nullary main_cst (constant S_ .f32 0x00000000#32),
    binary main_v4 main_cst main_v5 ((fun x v => Host.reduceAdd x v reducesTo_S16x131072x32_S131072x32_d0 h_S_) : (⟨S16x131072x32, .f32⟩ : BufTy).Contents (Elt F) → (⟨S_, .f32⟩ : BufTy).Contents (Elt F) → (⟨S131072x32, .f32⟩ : BufTy).Contents (Elt F)),
    unary main_v5 main_v6 ((transpose S32x131072 [1, 0] · transposes_S131072x32_S32x131072_1_0) : (⟨S131072x32, .f32⟩ : BufTy).Contents (Elt F) → (⟨S32x131072, .f32⟩ : BufTy).Contents (Elt F)),
    unary main_v6 main_v7 (broadcastInDim S1x32x131072 ![1, 2] bcast_S32x131072_S1x32x131072_1_2 : (⟨S32x131072, .f32⟩ : BufTy).Contents (Elt F) → (⟨S1x32x131072, .f32⟩ : BufTy).Contents (Elt F)),
    unary main_v7 main_v8 (broadcastInDim S16x32x131072 ![0, 1, 2] bcast_S1x32x131072_S16x32x131072_0_1_2 : (⟨S1x32x131072, .f32⟩ : BufTy).Contents (Elt F) → (⟨S16x32x131072, .f32⟩ : BufTy).Contents (Elt F)),
    binary main_v3 main_v8 main_v9 (mulf : (⟨S16x32x131072, .f32⟩ : BufTy).Contents (Elt F) → (⟨S16x32x131072, .f32⟩ : BufTy).Contents (Elt F) → (⟨S16x32x131072, .f32⟩ : BufTy).Contents (Elt F)),
    nullary main_cst_0 (constant S_ .f32 0x00000000#32),
    binary main_v9 main_cst_0 main_v10 ((fun x v => Host.reduceAdd x v reducesTo_S16x32x131072_S_d0_1_2 h_S_) : (⟨S16x32x131072, .f32⟩ : BufTy).Contents (Elt F) → (⟨S_, .f32⟩ : BufTy).Contents (Elt F) → (⟨S_, .f32⟩ : BufTy).Contents (Elt F)),
    nullary main_cst_1 (constant S_ .f32 0x48000000#32),
    binary main_v10 main_cst_1 main_v11 (Host.divf : (⟨S_, .f32⟩ : BufTy).Contents (Elt F) → (⟨S_, .f32⟩ : BufTy).Contents (Elt F) → (⟨S_, .f32⟩ : BufTy).Contents (Elt F)) ]

theorem main_eq_typed (c : Dev nD) : main (F := F) c = seq opsTyped := rfl

attribute [local irreducible] Host.reduce Host.reduceAdd in
theorem e1 : (TRef.nullary (TRef.of (T := ⟨S_, .f32⟩) main_call0_cst) (constant S_ .f32 0xFF800000#32) : HloOp τ sig (Elt F)) = nullary main_call0_cst ((constant S_ .f32 0xFF800000#32) : (⟨S_, .f32⟩ : BufTy).Contents (Elt F)) := rfl
attribute [local irreducible] Host.reduce Host.reduceAdd in
theorem e2 : (TRef.binary (TRef.of (T := ⟨S16x32x131072, .f32⟩) main_arg0) (TRef.of (T := ⟨S_, .f32⟩) main_call0_cst) (TRef.of (T := ⟨S16x131072, .f32⟩) main_call0_v0) (fun x v => Host.reduce FloatOps.maximumf x v reducesTo_S16x32x131072_S16x131072_d1 h_S_) : HloOp τ sig (Elt F)) = binary main_arg0 main_call0_cst main_call0_v0 ((fun x v => Host.reduce FloatOps.maximumf x v reducesTo_S16x32x131072_S16x131072_d1 h_S_) : (⟨S16x32x131072, .f32⟩ : BufTy).Contents (Elt F) → (⟨S_, .f32⟩ : BufTy).Contents (Elt F) → (⟨S16x131072, .f32⟩ : BufTy).Contents (Elt F)) := rfl
attribute [local irreducible] Host.reduce Host.reduceAdd in
theorem e3 : (TRef.nullary (TRef.of (T := ⟨S_, .f32⟩) main_call0_cst_0) (constant S_ .f32 0xFF800000#32) : HloOp τ sig (Elt F)) = nullary main_call0_cst_0 ((constant S_ .f32 0xFF800000#32) : (⟨S_, .f32⟩ : BufTy).Contents (Elt F)) := rfl
attribute [local irreducible] Host.reduce Host.reduceAdd in
theorem e4 : (TRef.unary (TRef.of (T := ⟨S_, .f32⟩) main_call0_cst_0) (TRef.of (T := ⟨S16x131072, .f32⟩) main_call0_v1) (broadcastInDim S16x131072 ![] bcast_S_S16x131072) : HloOp τ sig (Elt F)) = unary main_call0_cst_0 main_call0_v1 ((broadcastInDim S16x131072 ![] bcast_S_S16x131072) : (⟨S_, .f32⟩ : BufTy).Contents (Elt F) → (⟨S16x131072, .f32⟩ : BufTy).Contents (Elt F)) := rfl
attribute [local irreducible] Host.reduce Host.reduceAdd in
theorem e5 : (TRef.binary (TRef.of (T := ⟨S16x131072, .f32⟩) main_call0_v1) (TRef.of (T := ⟨S16x131072, .f32⟩) main_call0_v0) (TRef.of (T := ⟨S16x131072, .f32⟩) main_call0_v2) maximumf : HloOp τ sig (Elt F)) = binary main_call0_v1 main_call0_v0 main_call0_v2 (maximumf : (⟨S16x131072, .f32⟩ : BufTy).Contents (Elt F) → (⟨S16x131072, .f32⟩ : BufTy).Contents (Elt F) → (⟨S16x131072, .f32⟩ : BufTy).Contents (Elt F)) := rfl
attribute [local irreducible] Host.reduce Host.reduceAdd in
theorem e6 : (TRef.unary (TRef.of (T := ⟨S16x131072, .f32⟩) main_call0_v2) (TRef.of (T := ⟨S16x1x131072, .f32⟩) main_call0_v3) (broadcastInDim S16x1x131072 ![0, 2] bcast_S16x131072_S16x1x131072_0_2) : HloOp τ sig (Elt F)) = unary main_call0_v2 main_call0_v3 ((broadcastInDim S16x1x131072 ![0, 2] bcast_S16x131072_S16x1x131072_0_2) : (⟨S16x131072, .f32⟩ : BufTy).Contents (Elt F) → (⟨S16x1x131072, .f32⟩ : BufTy).Contents (Elt F)) := rfl
attribute [local irreducible] Host.reduce Host.reduceAdd in
theorem e7 : (TRef.unary (TRef.of (T := ⟨S16x1x131072, .f32⟩) main_call0_v3) (TRef.of (T := ⟨S16x32x131072, .f32⟩) main_call0_v4) (broadcastInDim S16x32x131072 ![0, 1, 2] bcast_S16x1x131072_S16x32x131072_0_1_2) : HloOp τ sig (Elt F)) = unary main_call0_v3 main_call0_v4 ((broadcastInDim S16x32x131072 ![0, 1, 2] bcast_S16x1x131072_S16x32x131072_0_1_2) : (⟨S16x1x131072, .f32⟩ : BufTy).Contents (Elt F) → (⟨S16x32x131072, .f32⟩ : BufTy).Contents (Elt F)) := rfl
attribute [local irreducible] Host.reduce Host.reduceAdd in
theorem e8 : (TRef.binary (TRef.of (T := ⟨S16x32x131072, .f32⟩) main_arg0) (TRef.of (T := ⟨S16x32x131072, .f32⟩) main_call0_v4) (TRef.of (T := ⟨S16x32x131072, .f32⟩) main_call0_v5) subf : HloOp τ sig (Elt F)) = binary main_arg0 main_call0_v4 main_call0_v5 (subf : (⟨S16x32x131072, .f32⟩ : BufTy).Contents (Elt F) → (⟨S16x32x131072, .f32⟩ : BufTy).Contents (Elt F) → (⟨S16x32x131072, .f32⟩ : BufTy).Contents (Elt F)) := rfl
attribute [local irreducible] Host.reduce Host.reduceAdd in
theorem e9 : (TRef.unary (TRef.of (T := ⟨S16x32x131072, .f32⟩) main_call0_v5) (TRef.of (T := ⟨S16x32x131072, .f32⟩) main_call0_v6) Host.exp : HloOp τ sig (Elt F)) = unary main_call0_v5 main_call0_v6 (Host.exp : (⟨S16x32x131072, .f32⟩ : BufTy).Contents (Elt F) → (⟨S16x32x131072, .f32⟩ : BufTy).Contents (Elt F)) := rfl
attribute [local irreducible] Host.reduce Host.reduceAdd in
theorem e10 : (TRef.nullary (TRef.of (T := ⟨S_, .f32⟩) main_call0_cst_1) (constant S_ .f32 0x00000000#32) : HloOp τ sig (Elt F)) = nullary main_call0_cst_1 ((constant S_ .f32 0x00000000#32) : (⟨S_, .f32⟩ : BufTy).Contents (Elt F)) := rfl
attribute [local irreducible] Host.reduce Host.reduceAdd in
theorem e11 : (TRef.binary (TRef.of (T := ⟨S16x32x131072, .f32⟩) main_call0_v6) (TRef.of (T := ⟨S_, .f32⟩) main_call0_cst_1) (TRef.of (T := ⟨S16x131072, .f32⟩) main_call0_v7) (fun x v => Host.reduceAdd x v reducesTo_S16x32x131072_S16x131072_d1 h_S_) : HloOp τ sig (Elt F)) = binary main_call0_v6 main_call0_cst_1 main_call0_v7 ((fun x v => Host.reduceAdd x v reducesTo_S16x32x131072_S16x131072_d1 h_S_) : (⟨S16x32x131072, .f32⟩ : BufTy).Contents (Elt F) → (⟨S_, .f32⟩ : BufTy).Contents (Elt F) → (⟨S16x131072, .f32⟩ : BufTy).Contents (Elt F)) := rfl
attribute [local irreducible] Host.reduce Host.reduceAdd in
theorem e12 : (TRef.unary (TRef.of (T := ⟨S16x131072, .f32⟩) main_call0_v7) (TRef.of (T := ⟨S16x1x131072, .f32⟩) main_call0_v8) (broadcastInDim S16x1x131072 ![0, 2] bcast_S16x131072_S16x1x131072_0_2) : HloOp τ sig (Elt F)) = unary main_call0_v7 main_call0_v8 ((broadcastInDim S16x1x131072 ![0, 2] bcast_S16x131072_S16x1x131072_0_2) : (⟨S16x131072, .f32⟩ : BufTy).Contents (Elt F) → (⟨S16x1x131072, .f32⟩ : BufTy).Contents (Elt F)) := rfl
attribute [local irreducible] Host.reduce Host.reduceAdd in
theorem e13 : (TRef.unary (TRef.of (T := ⟨S16x1x131072, .f32⟩) main_call0_v8) (TRef.of (T := ⟨S16x1x131072, .f32⟩) main_call0_v9) Host.log : HloOp τ sig (Elt F)) = unary main_call0_v8 main_call0_v9 (Host.log : (⟨S16x1x131072, .f32⟩ : BufTy).Contents (Elt F) → (⟨S16x1x131072, .f32⟩ : BufTy).Contents (Elt F)) := rfl
attribute [local irreducible] Host.reduce Host.reduceAdd in
theorem e14 : (TRef.unary (TRef.of (T := ⟨S16x1x131072, .f32⟩) main_call0_v9) (TRef.of (T := ⟨S16x32x131072, .f32⟩) main_call0_v10) (broadcastInDim S16x32x131072 ![0, 1, 2] bcast_S16x1x131072_S16x32x131072_0_1_2) : HloOp τ sig (Elt F)) = unary main_call0_v9 main_call0_v10 ((broadcastInDim S16x32x131072 ![0, 1, 2] bcast_S16x1x131072_S16x32x131072_0_1_2) : (⟨S16x1x131072, .f32⟩ : BufTy).Contents (Elt F) → (⟨S16x32x131072, .f32⟩ : BufTy).Contents (Elt F)) := rfl
attribute [local irreducible] Host.reduce Host.reduceAdd in
theorem e15 : (TRef.binary (TRef.of (T := ⟨S16x32x131072, .f32⟩) main_call0_v5) (TRef.of (T := ⟨S16x32x131072, .f32⟩) main_call0_v10) (TRef.of (T := ⟨S16x32x131072, .f32⟩) main_v0) subf : HloOp τ sig (Elt F)) = binary main_call0_v5 main_call0_v10 main_v0 (subf : (⟨S16x32x131072, .f32⟩ : BufTy).Contents (Elt F) → (⟨S16x32x131072, .f32⟩ : BufTy).Contents (Elt F) → (⟨S16x32x131072, .f32⟩ : BufTy).Contents (Elt F)) := rfl
attribute [local irreducible] Host.reduce Host.reduceAdd in
theorem e19 : (TRef.unary (TRef.of (T := ⟨S16x131072, .i32⟩) main_arg1) (TRef.of (T := ⟨S16x131072x1, .i32⟩) main_call1_v0) (broadcastInDim S16x131072x1 ![0, 1] bcast_S16x131072_S16x131072x1_0_1) : HloOp τ sig (Elt F)) = unary main_arg1 main_call1_v0 ((broadcastInDim S16x131072x1 ![0, 1] bcast_S16x131072_S16x131072x1_0_1) : (⟨S16x131072, .i32⟩ : BufTy).Contents (Elt F) → (⟨S16x131072x1, .i32⟩ : BufTy).Contents (Elt F)) := rfl
attribute [local irreducible] Host.reduce Host.reduceAdd in
theorem e20 : (TRef.nullary (TRef.of (T := ⟨S1x1x32, .i32⟩) main_call1_v1) (iotaInDim S1x1x32 32 2) : HloOp τ sig (Elt F)) = nullary main_call1_v1 ((iotaInDim S1x1x32 32 2) : (⟨S1x1x32, .i32⟩ : BufTy).Contents (Elt F)) := rfl
attribute [local irreducible] Host.reduce Host.reduceAdd in
theorem e21 : (TRef.unary (TRef.of (T := ⟨S16x131072x1, .i32⟩) main_call1_v0) (TRef.of (T := ⟨S16x131072x32, .i32⟩) main_call1_v2) (broadcastInDim S16x131072x32 ![0, 1, 2] bcast_S16x131072x1_S16x131072x32_0_1_2) : HloOp τ sig (Elt F)) = unary main_call1_v0 main_call1_v2 ((broadcastInDim S16x131072x32 ![0, 1, 2] bcast_S16x131072x1_S16x131072x32_0_1_2) : (⟨S16x131072x1, .i32⟩ : BufTy).Contents (Elt F) → (⟨S16x131072x32, .i32⟩ : BufTy).Contents (Elt F)) := rfl
attribute [local irreducible] Host.reduce Host.reduceAdd in
theorem e22 : (TRef.unary (TRef.of (T := ⟨S1x1x32, .i32⟩) main_call1_v1) (TRef.of (T := ⟨S16x131072x32, .i32⟩) main_call1_v3) (broadcastInDim S16x131072x32 ![0, 1, 2] bcast_S1x1x32_S16x131072x32_0_1_2) : HloOp τ sig (Elt F)) = unary main_call1_v1 main_call1_v3 ((broadcastInDim S16x131072x32 ![0, 1, 2] bcast_S1x1x32_S16x131072x32_0_1_2) : (⟨S1x1x32, .i32⟩ : BufTy).Contents (Elt F) → (⟨S16x131072x32, .i32⟩ : BufTy).Contents (Elt F)) := rfl
attribute [local irreducible] Host.reduce Host.reduceAdd in
theorem e23 : (TRef.binary (TRef.of (T := ⟨S16x131072x32, .i32⟩) main_call1_v2) (TRef.of (T := ⟨S16x131072x32, .i32⟩) main_call1_v3) (TRef.of (T := ⟨S16x131072x32, .i1⟩) main_call1_v4) (cmpi .eq) : HloOp τ sig (Elt F)) = binary main_call1_v2 main_call1_v3 main_call1_v4 ((cmpi .eq) : (⟨S16x131072x32, .i32⟩ : BufTy).Contents (Elt F) → (⟨S16x131072x32, .i32⟩ : BufTy).Contents (Elt F) → (⟨S16x131072x32, .i1⟩ : BufTy).Contents (Elt F)) := rfl
attribute [local irreducible] Host.reduce Host.reduceAdd in
theorem e24 : (TRef.unary (TRef.of (T := ⟨S16x131072x32, .i1⟩) main_call1_v4) (TRef.of (T := ⟨S16x131072x32, .f32⟩) main_v4) (uitofp .f32) : HloOp τ sig (Elt F)) = unary main_call1_v4 main_v4 ((uitofp .f32) : (⟨S16x131072x32, .i1⟩ : BufTy).Contents (Elt F) → (⟨S16x131072x32, .f32⟩ : BufTy).Contents (Elt F)) := rfl

/-- The two lists are one list. -/
theorem ops_eq : (opsTyped : List (HloOp τ sig (Elt F))) = ops :=
  (congrArg₂ List.cons e1 (congrArg₂ List.cons e2 (congrArg₂ List.cons e3 (congrArg₂ List.cons e4 (congrArg₂ List.cons e5 (congrArg₂ List.cons e6 (congrArg₂ List.cons e7 (congrArg₂ List.cons e8 (congrArg₂ List.cons e9 (congrArg₂ List.cons e10 (congrArg₂ List.cons e11 (congrArg₂ List.cons e12 (congrArg₂ List.cons e13 (congrArg₂ List.cons e14 (congrArg₂ List.cons e15 (congrArg (List.cons _) (congrArg (List.cons _) (congrArg (List.cons _) (congrArg₂ List.cons e19 (congrArg₂ List.cons e20 (congrArg₂ List.cons e21 (congrArg₂ List.cons e22 (congrArg₂ List.cons e23 (congrArg₂ List.cons e24 (congrArg (List.cons _) (congrArg (List.cons _) (congrArg (List.cons _) (congrArg (List.cons _) (congrArg (List.cons _) (congrArg (List.cons _) (congrArg (List.cons _) (congrArg (List.cons _) (congrArg (List.cons _) (congrArg (List.cons _) rfl))))))))))))))))))))))))))))))))))

theorem main_eq (c : Dev nD) : main (F := F) c = seq ops := (main_eq_typed c).trans (congrArg seq ops_eq)

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., unary_bufs_sub .., nullary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., binary_bufs_sub ..⟩

set_option maxHeartbeats 2000000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = val_main_v11 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v11).trans (by
        after_results_simp
        simp only [val_main_v11, val_main_cst_1, val_main_v10, val_main_cst_0, val_main_v9, val_main_v8, val_main_v7, val_main_v6, val_main_v5, val_main_cst, val_main_v4, val_main_call1_v4, val_main_call1_v3, val_main_call1_v2, val_main_call1_v1, val_main_call1_v0, val_main_v3, val_main_v2, val_main_v1, val_main_v0, val_main_call0_v10, val_main_call0_v9, val_main_call0_v8, val_main_call0_v7, val_main_call0_cst_1, val_main_call0_v6, val_main_call0_v5, val_main_call0_v4, val_main_call0_v3, val_main_call0_v2, val_main_call0_v1, val_main_call0_cst_0, val_main_call0_v0, val_main_call0_cst]),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefTerm.lean ====
/-
  The reference, one element at a time.

  Its weighted array (the product of  -logp / exp logp  with the class counts broadcast over the rows) read at
  (b, c, n) is  term  of the column (b, ·, n) of the scores and of the labels at the point n: the maximum and the sum of
  exponentials are reductions over the class axis, read as a fold and a sum over the column; the extra maximum with
  -inf changes nothing; the count is a sum over the 16 rows of the comparison of a label with the class number; and the
  quotient is the product form of the term on every extended real. The result is the sum of the weighted array over all
  its indices, divided by the number of points.
-/
import proofs.«110663_j45251775431144_2_alg».proof.Proof.RefRead
import proofs.«110663_j45251775431144_2_alg».proof.Proof.LossSpec
import Idealize.ShloMosaic.Lib.ValueIdx

noncomputable section

open scoped BigOperators

namespace Cert.ReferenceIdeal.RefTerm

open Cert.ReferenceIdeal Cert.ReferenceIdeal.Gen Cert.ReferenceIdeal.ReadP Idealize.ShloMosaic Idealize.ShloMosaic.ValueIdx
open Cert.LossSpec

variable (x0 : (⟨S16x32x131072, .f32⟩ : BufTy).Contents (Elt Ideal)) (x1 : (⟨S16x131072, .i32⟩ : BufTy).Contents (Elt Ideal))

/-- The maximum over the classes at (b, n): the column's maximum (the further maximum with -inf is the identity). -/
theorem max_at (b : Fin 16) (n : Fin 131072) :
    val_main_call0_v2 (F := Ideal) x0 (ix2 b n) = colMax (fun k => x0 (ix3 b k n)) := by
  rw [val_main_call0_v2_apply, val_main_call0_v1_apply, val_main_call0_cst_0_apply]
  unfold val_main_call0_v0
  have hr := Host.reduce_eq_fold_single (FloatOps.maximumf (F := Ideal) (φ := .f32)) x0 (val_main_call0_cst (F := Ideal))
    reducesTo_S16x32x131072_S16x131072_d1 (by decide) h_S_ (ix2 b n)
  rw [hr]
  show max (Ideal.ofBits .f32 0xFF800000#32)
      ((Finset.univ : Finset (Fin 32)).fold max (Ideal.ofBits .f32 0xFF800000#32) _) = _
  rw [LossLaw.max_neg_inf_word]
  unfold colMax
  refine congrArg (fun f => (Finset.univ : Finset (Fin 32)).fold max (Ideal.ofBits .f32 0xFF800000#32) f) ?_
  funext k
  exact congrArg x0 (funext fun a => Fin.ext (by match a with | ⟨0, _⟩ => rfl | ⟨1, _⟩ => rfl | ⟨2, _⟩ => rfl))

/-- The shifted scores. -/
theorem shift_at (b : Fin 16) (c : Fin 32) (n : Fin 131072) :
    val_main_call0_v5 (F := Ideal) x0 (ix3 b c n) = shifted (fun k => x0 (ix3 b k n)) c := by
  rw [val_main_call0_v5_apply, val_main_call0_v4_apply, val_main_call0_v3_apply]
  have e : idx_main_call0_v3 (idx_main_call0_v4 (ix3 b c n)) = ix2 b n :=
    funext fun a => Fin.ext (by match a with | ⟨0, _⟩ => rfl | ⟨1, _⟩ => rfl)
  rw [e, max_at]
  rfl

/-- The log-probabilities. -/
theorem logp_at (b : Fin 16) (c : Fin 32) (n : Fin 131072) :
    val_main_v0 (F := Ideal) x0 (ix3 b c n) = logp (fun k => x0 (ix3 b k n)) c := by
  rw [val_main_v0_apply, shift_at, val_main_call0_v10_apply, val_main_call0_v9_apply, val_main_call0_v8_apply]
  have e : idx_main_call0_v8 (idx_main_call0_v10 (ix3 b c n)) = ix2 b n :=
    funext fun a => Fin.ext (by match a with | ⟨0, _⟩ => rfl | ⟨1, _⟩ => rfl)
  rw [e, val_main_call0_v7_apply]
  unfold logp
  show _ - Ideal.log (Ideal.ofBits .f32 0x00000000#32 + ∑ k : Fin 32, val_main_call0_v6 (F := Ideal) x0 (idx_main_call0_v7 (ix2 b n) k)) = _
  rw [Ideal.ofBits_zero_f32, zero_add]
  refine congrArg (fun s => _ - Ideal.log s) (Finset.sum_congr rfl fun k _ => ?_)
  have e2 : idx_main_call0_v7 (ix2 b n) k = ix3 b k n :=
    funext fun a => Fin.ext (by match a with | ⟨0, _⟩ => rfl | ⟨1, _⟩ => rfl | ⟨2, _⟩ => rfl)
  rw [e2, val_main_call0_v6_apply, shift_at]
  rfl

/-- The class counts broadcast over the rows. -/
theorem hits_at (b : Fin 16) (c : Fin 32) (n : Fin 131072) :
    val_main_v8 (F := Ideal) x1 (ix3 b c n) = hits (fun b' => x1 (ix2 b' n)) c := by
  rw [val_main_v8_apply, val_main_v7_apply, val_main_v6_apply]
  have e : idx_main_v6 (idx_main_v7 (idx_main_v8 (ix3 b c n))) = ix2 n c :=
    funext fun a => Fin.ext (by match a with | ⟨0, _⟩ => rfl | ⟨1, _⟩ => rfl)
  rw [e, val_main_v5_apply]
  unfold hits
  show Ideal.ofBits .f32 0x00000000#32 + _ = _
  rw [Ideal.ofBits_zero_f32, zero_add]
  refine Finset.sum_congr rfl fun k _ => ?_
  rw [val_main_v4_apply, val_main_call1_v4_apply, val_main_call1_v2_apply, val_main_call1_v0_apply,
    val_main_call1_v3_apply, val_main_call1_v1_apply]
  have e1 : idx_main_call1_v0 (idx_main_call1_v2 (idx_main_v5 (ix2 n c) k)) = ix2 k n :=
    funext fun a => Fin.ext (by match a with | ⟨0, _⟩ => rfl | ⟨1, _⟩ => rfl)
  rw [e1]
  rfl

/-- The weighted array at (b, c, n) is the term of the column and the labels there. -/
theorem term_at (b : Fin 16) (c : Fin 32) (n : Fin 131072) :
    val_main_v9 (F := Ideal) x0 x1 (ix3 b c n) = term (fun k => x0 (ix3 b k n)) (fun b' => x1 (ix2 b' n)) c := by
  rw [val_main_v9_apply, val_main_v3_apply, val_main_v2_apply, val_main_v1_apply, logp_at, hits_at, term_eq_div]
  rfl

/-- The result: the sum of the weighted array over every index, divided by the number of points. -/
theorem result_at (i : S_.Idx) :
    val_main_v11 (F := Ideal) x0 x1 i
      = Ideal.div (∑ j : S16x32x131072.Idx, val_main_v9 (F := Ideal) x0 x1 j) (Ideal.ofBits .f32 0x48000000#32) := by
  rw [val_main_v11_apply, val_main_v10_apply]
  show Ideal.div (Ideal.ofBits .f32 0x00000000#32 + _) _ = _
  rw [Ideal.ofBits_zero_f32, zero_add]
  rfl

end Cert.ReferenceIdeal.RefTerm

end
-- ==== Proof.SumSplit.lean ====
/-
  Re-indexing the loss's sum.

  The index set of a [16, 32, 131072] array is the product of its three coordinate ranges, and the long axis is 256
  consecutive runs of 512 positions: position m is  t * 512 + n  for exactly one run t and one offset n. So a sum over
  all (b, c, m) is the sum over the runs t of the sums over (b, c, n) of the entries at (b, c, t * 512 + n): addition on
  the extended reals is commutative and associative, so regrouping a finite sum needs nothing of the summands.
-/
import Idealize.ShloMosaic.Lib.ValueIdx

noncomputable section

open scoped BigOperators

namespace Cert.SumSplit

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Offset n of run t on the long axis. -/
def pos (t : Fin 256) (n : Fin 512) : Fin 131072 :=
  ⟨t.val * 512 + n.val, by have := t.isLt; have := n.isLt; omega⟩

/-- A sum over a range of 256 * 512 positions is the sum over the 256 runs of the sums over the 512 offsets, position
    n + 512 * t being offset n of run t. -/
theorem sum_mul {M : Type*} [AddCommMonoid M] (g : Fin (256 * 512) → M) :
    ∑ m, g m = ∑ t : Fin 256, ∑ n : Fin 512, g (finProdFinEquiv (t, n)) := by
  rw [← Equiv.sum_comp finProdFinEquiv g, Fintype.sum_prod_type]

/-- A sum over the long axis is the sum over the runs of the sums over the offsets. -/
theorem sum_runs {M : Type*} [AddCommMonoid M] (g : Fin 131072 → M) :
    ∑ m, g m = ∑ t : Fin 256, ∑ n : Fin 512, g (pos t n) := by
  refine (sum_mul (fun m : Fin (256 * 512) => g m)).trans ?_
  refine Finset.sum_congr rfl fun t _ => Finset.sum_congr rfl fun n _ => congrArg g (Fin.ext ?_)
  show n.val + 512 * t.val = t.val * 512 + n.val
  omega

/-- The sum over (b, c, m) regrouped by runs. -/
theorem regroup {M : Type*} [AddCommMonoid M] (f : Fin 16 → Fin 32 → Fin 131072 → M) :
    ∑ b, ∑ c, ∑ m, f b c m = ∑ t : Fin 256, ∑ b, ∑ c, ∑ n : Fin 512, f b c (pos t n) := by
  calc ∑ b, ∑ c, ∑ m, f b c m
      = ∑ b, ∑ c, ∑ t : Fin 256, ∑ n : Fin 512, f b c (pos t n) :=
        Finset.sum_congr rfl fun b _ => Finset.sum_congr rfl fun c _ => sum_runs _
    _ = ∑ b, ∑ t : Fin 256, ∑ c, ∑ n : Fin 512, f b c (pos t n) :=
        Finset.sum_congr rfl fun b _ => Finset.sum_comm
    _ = ∑ t : Fin 256, ∑ b, ∑ c, ∑ n : Fin 512, f b c (pos t n) := Finset.sum_comm

end Cert.SumSplit

end
-- ==== Proof.Bridge.lean ====
/-
  The two programs compute one number.

  Block t of the scores is the slice of the score array at the points t * 512 … t * 512 + 511 (all rows, all classes),
  and block t of the labels the same slice of the label array; so the total of grid point t is the sum, over the rows,
  the classes and the 512 points of run t, of the terms of the two arrays. Zero plus the 256 totals is therefore the sum
  of the terms over all rows, classes and points — regrouped by runs — which is what the reference sums; both divide by
  the number of points.
-/
import proofs.«110663_j45251775431144_2_alg».proof.Proof.KernelAcc
import proofs.«110663_j45251775431144_2_alg».proof.Proof.RefTerm
import proofs.«110663_j45251775431144_2_alg».proof.Proof.SumSplit

noncomputable section

open scoped BigOperators
open Idealize.ShloMosaic Idealize.ShloMosaic.TcCoe Idealize.SL.Sem Idealize.ShloMosaic.ValueIdx

namespace Cert.Bridge

open Cert.LossSpec Cert.SumSplit

/-- The sum of the terms of a score array and a label array over all rows, classes and points. -/
def lossSum (X0 : (⟨3, ![16, 32, 131072]⟩ : Shape).Idx → EReal) (X1 : (⟨2, ![16, 131072]⟩ : Shape).Idx → BitVec 32) : EReal :=
  ∑ b : Fin 16, ∑ c : Fin 32, ∑ n : Fin 131072, term (fun k => X0 (ix3 b k n)) (fun b' => X1 (ix2 b' n)) c

/-! ## The kernel -/

section Kernel

open Cert.KernelIdeal Cert.KernelIdeal.Gen Cert.KernelIdeal.Tile Cert.KernelIdeal.Loss

variable (m : (ℓ : Loc nD τ sig) → Buf (Elt Ideal) ℓ)

/-- The two input windows' block indices at every grid point: all rows, all classes, run t. -/
theorem idx_scores : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)
theorem idx_labels : ∀ t : Fin cfg0.N, win0_1.index t 0 = 0 ∧ win0_1.index t 1 = t.val :=
  (by decide +kernel : ∀ t : Fin grid0.N, win0_1.index t 0 = 0 ∧ win0_1.index t 1 = t.val)

/-- Block t of the scores at (b, k, n) is the score array at (b, k, t * 512 + n). -/
theorem scores_block (c : Dev nD) (t : Fin cfg0.N) (t' : Fin 256) (ht : t'.val = t.val) (b : Fin 16) (k : Fin 32) (n : Fin 512) :
    (iblk m c 0 t : Vec Ideal S16x32x512 .f32) (ix3 b k n) = m ((c : Thread nD τ).loc main_arg0) (ix3 b k (pos t' n)) := by
  have hi := idx_scores t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 16 + 1 * b.val = b.val; rw [hi.1]; omega
  | ⟨1, _⟩ => show win0_0.index t 1 * 32 + 1 * k.val = k.val; rw [hi.2.1]; omega
  | ⟨2, _⟩ => show win0_0.index t 2 * 512 + 1 * n.val = t'.val * 512 + n.val; rw [hi.2.2, ht]; omega

/-- Block t of the labels at (b, n) is the label array at (b, t * 512 + n). -/
theorem labels_block (c : Dev nD) (t : Fin cfg0.N) (t' : Fin 256) (ht : t'.val = t.val) (b : Fin 16) (n : Fin 512) :
    (iblk m c 1 t : Vec Ideal S16x512 .i32) (ix2 b n) = m ((c : Thread nD τ).loc main_arg1) (ix2 b (pos t' n)) := by
  have hi := idx_labels t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 16 + 1 * b.val = b.val; rw [hi.1]; omega
  | ⟨1, _⟩ => show win0_1.index t 1 * 512 + 1 * n.val = t'.val * 512 + n.val; rw [hi.2, ht]; omega

/-- The total of grid point t, over the two argument arrays. -/
theorem pointTotal_eq (c : Dev nD) (t' : Fin 256) :
    pointTotal m c t'.val = ∑ b : Fin 16, ∑ k : Fin 32, ∑ n : Fin 512,
      term (fun j => m ((c : Thread nD τ).loc main_arg0) (ix3 b j (pos t' n)))
        (fun b' => m ((c : Thread nD τ).loc main_arg1) (ix2 b' (pos t' n))) k := by
  have hN : cfg0.N = 256 := N_0
  have hlt : t'.val < cfg0.N := by have := t'.isLt; omega
  rw [pointTotal_of_lt m c ⟨t'.val, hlt⟩]
  unfold tileTotal
  refine Finset.sum_congr rfl fun b _ => Finset.sum_congr rfl fun k _ => Finset.sum_congr rfl fun n _ => ?_
  congr 1
  · funext j; exact scores_block m c ⟨t'.val, hlt⟩ t' rfl b j n
  · funext b'; exact labels_block m c ⟨t'.val, hlt⟩ t' rfl b' n

/-- The loss as the kernel forms it is the sum of all the terms divided by the number of points. -/
theorem lossValue_eq (c : Dev nD) :
    lossValue m c = Ideal.div (lossSum (m ((c : Thread nD τ).loc main_arg0)) (m ((c : Thread nD τ).loc main_arg1)))
      (Ideal.ofBits .f32 0x48000000#32) := by
  unfold lossValue lossSum
  rw [Ideal.ofBits_zero_f32, zero_add, Finset.sum_range (fun s => pointTotal m c s)]
  refine congrArg (fun s => Ideal.div s (Ideal.ofBits .f32 0x48000000#32)) ?_
  rw [regroup (fun b k n => term (fun j => m ((c : Thread nD τ).loc main_arg0) (ix3 b j n))
    (fun b' => m ((c : Thread nD τ).loc main_arg1) (ix2 b' n)) k)]
  exact Finset.sum_congr rfl fun t' _ => pointTotal_eq m c t'

end Kernel

/-! ## The reference -/

section Reference

open Cert.ReferenceIdeal Cert.ReferenceIdeal.Gen Cert.ReferenceIdeal.ReadP Cert.ReferenceIdeal.RefTerm

/-- The reference's result is the sum of all the terms divided by the number of points. -/
theorem ref_eq (x0 : (⟨S16x32x131072, .f32⟩ : BufTy).Contents (Elt Ideal)) (x1 : (⟨S16x131072, .i32⟩ : BufTy).Contents (Elt Ideal))
    (i : S_.Idx) :
    val_main_v11 (F := Ideal) x0 x1 i = Ideal.div (lossSum x0 x1) (Ideal.ofBits .f32 0x48000000#32) := by
  rw [result_at]
  refine congrArg (fun s => Ideal.div s (Ideal.ofBits .f32 0x48000000#32)) ?_
  unfold lossSum
  rw [sum_idx3]
  exact Finset.sum_congr rfl fun b _ => Finset.sum_congr rfl fun c _ => Finset.sum_congr rfl fun n _ => term_at x0 x1 b c n

end Reference

end Cert.Bridge

end
-- ==== Proof.lean ====
/-
  The certificate of the loss kernel against its reference.

  Both programs compute, for a score array of shape [16, 32, 131072] and a label array of shape [16, 131072], the sum
  over all rows b, classes c and points n of

      term = -logp * exp (-logp) * (number of labels at the point equal to c),

  where logp is the log-softmax of the scores over the class axis at (b, c, n), divided by the number of points.
  The kernel walks the points in 256 tiles of 512, adds each tile's total into an accumulator that starts at zero and
  divides at the last tile; the reference sums the whole weighted array at once and forms the term as a quotient,
  -logp / exp logp. On the extended reals the two forms of the term agree everywhere (LossLaw), each tile's block is a
  slice of the arrays (Bridge), and a finite sum may be regrouped freely (SumSplit): the two results are one number.
  The precondition that the scores are finite is not needed for the equality and is not opened.

  The kernel's frames are the generated ones; its value is read off the generated frame run (KernelCases, KernelAcc,
  KernelRun over the payload read in KernelTile). The reference's run and its stages are RefRun and RefRead, read at an
  index in RefTerm.
-/
import proofs.«110663_j45251775431144_2_alg».proof.Defs
import proofs.«110663_j45251775431144_2_alg».proof.Proof.Gen.Kernel
import proofs.«110663_j45251775431144_2_alg».proof.Proof.Gen.Kernel.Frame
import proofs.«110663_j45251775431144_2_alg».proof.Proof.Gen.KernelIdeal
import proofs.«110663_j45251775431144_2_alg».proof.Proof.Gen.KernelIdeal.Frame
import proofs.«110663_j45251775431144_2_alg».proof.Proof.Gen.ReferenceIdeal
import proofs.«110663_j45251775431144_2_alg».proof.Proof.Gen.Pre_finite_inputs
import proofs.«110663_j45251775431144_2_alg».proof.Proof.KernelRun
import proofs.«110663_j45251775431144_2_alg».proof.Proof.RefRun
import proofs.«110663_j45251775431144_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both idealized programs end with the sum of all the terms divided by the number of points. -/
theorem algebraic : Cert.algebraic_KernelIdeal_ReferenceIdeal := by
  intro m ρ m' ρ' _ hagree
  refine ⟨fun c => fun _ => Ideal.div (Cert.Bridge.lossSum
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
      (Ideal.ofBits .f32 0x48000000#32), ?_, ?_⟩
  · refine (θ_run Cert.KernelIdeal.defs _ _).mono (fun _ h c => ⟨(h c).1.trans ?_, (h c).2⟩)
      (Cert.KernelIdeal.LossRun.run m ρ)
    exact funext fun _ => Cert.Bridge.lossValue_eq m c
  · refine (θ_run Cert.ReferenceIdeal.defs _ _).mono (fun _ h c => ⟨(h c).1.trans ?_, (h c).2⟩)
      (Cert.ReferenceIdeal.RefRun.run (F := Ideal) m' ρ')
    rw [(hagree c).1, (hagree c).2]
    exact funext fun i => Cert.Bridge.ref_eq _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
